-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S513x2x16x2048 : Shape := ⟨4, ![513, 2, 16, 2048]⟩
abbrev S2048x2048 : Shape := ⟨2, ![2048, 2048]⟩
abbrev S6144x2048 : Shape := ⟨2, ![6144, 2048]⟩
abbrev S_ : Shape := ⟨0, ![]⟩

class Facts : Prop where
  bcast_S_S513x2x16x2048 : S_.BroadcastsInDim S513x2x16x2048 (![] : Fin 0 → Fin S513x2x16x2048.rank)
  reducesTo_S513x2x16x2048_S_d0_1_2_3 : S513x2x16x2048.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S6144x2048 : S_.BroadcastsInDim S6144x2048 (![] : Fin 0 → Fin S6144x2048.rank)
  reducesTo_S6144x2048_S_d0_1 : S6144x2048.ReducesTo [0, 1] S_

variable [Facts]

def fn_part1 {F : FTy → Type} [FloatOps F] (main_arg4 : FVec F S6144x2048 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144x2048 .f32 := Host.absf main_arg4
  let main_cst_6 : FVec F S_ .f32 := constant S_ .f32 0x7F800000#32
  let main_v20 : FVec F S6144x2048 .f32 := broadcastInDim S6144x2048 ![] bcast_S_S6144x2048 main_cst_6
  let main_v21 : IVec S6144x2048 1 := cmpf .olt main_v19 main_v20
  let main_c_7 : IVec S_ 1 := constantI S_ 1 1#1
  let main_v22 : IVec S_ 1 := (fun x v => Host.reduce IntOp.andi x v reducesTo_S6144x2048_S_d0_1 h_S_) main_v21 main_c_7
  let main_v23 : IVec S_ 1 := andi main_v18 main_v22
  main_v23

def fn {F : FTy → Type} [FloatOps F] (main_arg0 : FVec F S513x2x16x2048 .f32) (main_arg1 : FVec F S2048x2048 .f32) (main_arg2 : FVec F S2048x2048 .f32) (main_arg3 : FVec F S6144x2048 .f32) (main_arg4 : FVec F S6144x2048 .f32) : IVec S_ 1 :=
  let main_v0 : FVec F S513x2x16x2048 .f32 := Host.absf main_arg0
  let main_cst : FVec F S_ .f32 := constant S_ .f32 0x7F800000#32
  let main_v1 : FVec F S513x2x16x2048 .f32 := broadcastInDim S513x2x16x2048 ![] bcast_S_S513x2x16x2048 main_cst
  let main_v2 : IVec S513x2x16x2048 1 := cmpf .olt main_v0 main_v1
  let main_c : IVec S_ 1 := constantI S_ 1 1#1
  let main_v3 : IVec S_ 1 := (fun x v => Host.reduce IntOp.andi x v reducesTo_S513x2x16x2048_S_d0_1_2_3 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S6144x2048 .f32 := Host.absf main_arg3
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg4 main_v13 main_v16
-- ==== Kernel.lean ====
abbrev S513x2x16x2048 : Shape := ⟨4, ![513, 2, 16, 2048]⟩
abbrev S2048x2048 : Shape := ⟨2, ![2048, 2048]⟩
abbrev S6144x2048 : Shape := ⟨2, ![6144, 2048]⟩
abbrev S512x2x16x2048 : Shape := ⟨4, ![512, 2, 16, 2048]⟩
abbrev S16384x2048 : Shape := ⟨2, ![16384, 2048]⟩
abbrev S2048x6144 : Shape := ⟨2, ![2048, 6144]⟩
abbrev S512x2048 : Shape := ⟨2, ![512, 2048]⟩
abbrev S256x2048 : Shape := ⟨2, ![256, 2048]⟩
abbrev S256x6144 : Shape := ⟨2, ![256, 6144]⟩
abbrev S512x6144 : Shape := ⟨2, ![512, 6144]⟩
abbrev S512x256 : Shape := ⟨2, ![512, 256]⟩

abbrev nBuf : Space → Nat
  | .hbm => 21
  | .vmem => 16
  | .smem => 0
  | _ => 0

abbrev bufTy : (tb : Table) → Fin (tcTables nBuf tb) → BufTy
  | .hbm, ⟨0, _⟩ => ⟨S513x2x16x2048, .f32⟩
  | .hbm, ⟨1, _⟩ => ⟨S2048x2048, .f32⟩
  | .hbm, ⟨2, _⟩ => ⟨S2048x2048, .f32⟩
  | .hbm, ⟨3, _⟩ => ⟨S6144x2048, .f32⟩
  | .hbm, ⟨4, _⟩ => ⟨S6144x2048, .f32⟩
  | .hbm, ⟨5, _⟩ => ⟨S512x2x16x2048, .f32⟩
  | .hbm, ⟨6, _⟩ => ⟨S16384x2048, .f32⟩
  | .hbm, ⟨7, _⟩ => ⟨S16384x2048, .bf16⟩
  | .hbm, ⟨8, _⟩ => ⟨S512x2x16x2048, .f32⟩
  | .hbm, ⟨9, _⟩ => ⟨S16384x2048, .f32⟩
  | .hbm, ⟨10, _⟩ => ⟨S16384x2048, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x6144, .f32⟩
  | .hbm, ⟨16, _⟩ => ⟨S2048x6144, .bf16⟩
  | .hbm, ⟨17, _⟩ => ⟨S2048x6144, .f32⟩
  | .hbm, ⟨18, _⟩ => ⟨S2048x6144, .bf16⟩
  | .hbm, ⟨19, _⟩ => ⟨S16384x2048, .f32⟩
  | .hbm, ⟨20, _⟩ => ⟨S512x2x16x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x6144, .bf16⟩
  | .local _ .vmem, ⟨9, _⟩ => ⟨S256x6144, .bf16⟩
  | .local _ .vmem, ⟨10, _⟩ => ⟨S256x6144, .bf16⟩
  | .local _ .vmem, ⟨11, _⟩ => ⟨S256x6144, .bf16⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x6144, .f32⟩
  | _, _ => ⟨S513x2x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S513x2x16x2048_S512x2x16x2048_0_0_0_0 : S513x2x16x2048.Slices ![0, 0, 0, 0] S512x2x16x2048
  shapeCasts_S512x2x16x2048_S16384x2048 : S512x2x16x2048.ShapeCasts S16384x2048
  bitsLt_bf16_f32 : FTy.bits .bf16 < FTy.bits .f32
  slices_S513x2x16x2048_S512x2x16x2048_1_0_0_0 : S513x2x16x2048.Slices ![1, 0, 0, 0] S512x2x16x2048
  transposes_S2048x2048_S2048x2048_1_0 : S2048x2048.Transposes [1, 0] S2048x2048
  transposes_S6144x2048_S2048x6144_1_0 : S6144x2048.Transposes [1, 0] S2048x6144
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x6144_S512x6144_0_0 : ∀ a, (![0, 0] : Fin 2 → Nat) a + S512x6144.size a ≤ S512x6144.size a
  h_S512x6144 : 0 < S512x6144.numel
  shapeCasts_S512x6144_S512x6144 : S512x6144.ShapeCasts S512x6144
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S512x6144_S512x2048_0_0 : ∀ a, (![0, 0] : Fin 2 → Nat) a + S512x2048.size a ≤ S512x6144.size a
  inb_S512x6144_S512x2048_0_2048 : ∀ a, (![0, 2048] : Fin 2 → Nat) a + S512x2048.size a ≤ S512x6144.size a
  inb_S512x6144_S512x2048_0_4096 : ∀ a, (![0, 4096] : Fin 2 → Nat) a + S512x2048.size a ≤ S512x6144.size a
  shapeCasts_S16384x2048_S512x2x16x2048 : S16384x2048.ShapeCasts S512x2x16x2048
  dot_S512x256_S256x2048_S512x2048_1_0_0_1_n_n_wf : DotDims.WF S512x256 S256x2048 S512x2048 [1] [0] [0] [1] [] []
  dot_S512x256_S256x6144_S512x6144_1_0_0_1_n_n_wf : DotDims.WF S512x256 S256x6144 S512x6144 [1] [0] [0] [1] [] []
  hrank0 : 0 < grid0.rank
  k0_mult1_dvd : ∀ i : grid0.Coords, 256 ∣ (k0_mult1 i).toNat
  k0_off1_inb : ∀ i : grid0.Coords, ∀ a, (k0_off1 i) a + S512x256.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .bf16 = 32 ∨ (Rect.block (s := S16384x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x6144.size a ≤ S2048x6144.size a
  hwx0_4 : ∀ i : grid0.Coords, EltTy.bits .bf16 = 32 ∨ (Rect.block (s := S2048x6144) S256x6144.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x6144.size a ≤ S2048x6144.size a
  hwx0_5 : ∀ i : grid0.Coords, EltTy.bits .bf16 = 32 ∨ (Rect.block (s := S2048x6144) S256x6144.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S16384x2048.size a
  hwx0_6 : ∀ i : grid0.Coords, EltTy.bits .f32 = 32 ∨ (Rect.block (s := S16384x2048) S512x2048.size (cc0_transform_6 i) (hinb0_6 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S256x6144_S512x6144_1_0_0_1_n_n : DotDims S512x256 S256x6144 S512x6144 where
  lhsContracting := [1]
  rhsContracting := [0]
  lhsNonContracting := [0]
  rhsNonContracting := [1]
  lhsBatch := []
  rhsBatch := []
  wf := dot_S512x256_S256x6144_S512x6144_1_0_0_1_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x6144.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x6144.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S513x2x16x2048 : Shape := ⟨4, ![513, 2, 16, 2048]⟩
abbrev S2048x2048 : Shape := ⟨2, ![2048, 2048]⟩
abbrev S6144x2048 : Shape := ⟨2, ![6144, 2048]⟩
abbrev S512x2x16x2048 : Shape := ⟨4, ![512, 2, 16, 2048]⟩
abbrev S_ : Shape := ⟨0, ![]⟩
abbrev S512x2x16x6144 : Shape := ⟨4, ![512, 2, 16, 6144]⟩
abbrev S512x2x16x3x2048 : Shape := ⟨5, ![512, 2, 16, 3, 2048]⟩
abbrev S512x2x16x1x2048 : Shape := ⟨5, ![512, 2, 16, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S513x2x16x2048, .f32⟩
  | .hbm, ⟨1, _⟩ => ⟨S2048x2048, .f32⟩
  | .hbm, ⟨2, _⟩ => ⟨S2048x2048, .f32⟩
  | .hbm, ⟨3, _⟩ => ⟨S6144x2048, .f32⟩
  | .hbm, ⟨4, _⟩ => ⟨S6144x2048, .f32⟩
  | .hbm, ⟨5, _⟩ => ⟨S512x2x16x2048, .f32⟩
  | .hbm, ⟨6, _⟩ => ⟨S512x2x16x2048, .f32⟩
  | .hbm, ⟨7, _⟩ => ⟨S512x2x16x2048, .f32⟩
  | .hbm, ⟨8, _⟩ => ⟨S512x2x16x2048, .f32⟩
  | .hbm, ⟨9, _⟩ => ⟨S512x2x16x2048, .f32⟩
  | .hbm, ⟨10, _⟩ => ⟨S512x2x16x2048, .f32⟩
  | .hbm, ⟨11, _⟩ => ⟨S512x2x16x2048, .f32⟩
  | .hbm, ⟨12, _⟩ => ⟨S_, .f32⟩
  | .hbm, ⟨13, _⟩ => ⟨S512x2x16x2048, .f32⟩
  | .hbm, ⟨14, _⟩ => ⟨S512x2x16x2048, .f32⟩
  | .hbm, ⟨15, _⟩ => ⟨S_, .f32⟩
  | .hbm, ⟨16, _⟩ => ⟨S512x2x16x2048, .f32⟩
  | .hbm, ⟨17, _⟩ => ⟨S512x2x16x2048, .f32⟩
  | .hbm, ⟨18, _⟩ => ⟨S512x2x16x6144, .f32⟩
  | .hbm, ⟨19, _⟩ => ⟨S512x2x16x6144, .f32⟩
  | .hbm, ⟨20, _⟩ => ⟨S512x2x16x6144, .f32⟩
  | .hbm, ⟨21, _⟩ => ⟨S512x2x16x3x2048, .f32⟩
  | .hbm, ⟨22, _⟩ => ⟨S_, .f32⟩
  | .hbm, ⟨23, _⟩ => ⟨S512x2x16x2048, .f32⟩
  | .hbm, ⟨24, _⟩ => ⟨S_, .f32⟩
  | .hbm, ⟨25, _⟩ => ⟨S512x2x16x2048, .f32⟩
  | .hbm, ⟨26, _⟩ => ⟨S512x2x16x2048, .f32⟩
  | .hbm, ⟨27, _⟩ => ⟨S512x2x16x1x2048, .f32⟩
  | .hbm, ⟨28, _⟩ => ⟨S512x2x16x3x2048, .f32⟩
  | .hbm, ⟨29, _⟩ => ⟨S512x2x16x3x2048, .f32⟩
  | .hbm, ⟨30, _⟩ => ⟨S512x2x16x3x2048, .f32⟩
  | .hbm, ⟨31, _⟩ => ⟨S_, .f32⟩
  | .hbm, ⟨32, _⟩ => ⟨S512x2x16x2048, .f32⟩
  | .hbm, ⟨33, _⟩ => ⟨S512x2x16x1x2048, .f32⟩
  | .hbm, ⟨34, _⟩ => ⟨S512x2x16x3x2048, .f32⟩
  | .hbm, ⟨35, _⟩ => ⟨S512x2x16x3x2048, .f32⟩
  | .hbm, ⟨36, _⟩ => ⟨S512x2x16x1x2048, .f32⟩
  | .hbm, ⟨37, _⟩ => ⟨S512x2x16x2048, .f32⟩
  | .hbm, ⟨38, _⟩ => ⟨S512x2x16x2048, .f32⟩
  | .hbm, ⟨39, _⟩ => ⟨S512x2x16x1x2048, .f32⟩
  | .hbm, ⟨40, _⟩ => ⟨S512x2x16x2048, .f32⟩
  | .hbm, ⟨41, _⟩ => ⟨S512x2x16x2048, .f32⟩
  | .hbm, ⟨42, _⟩ => ⟨S512x2x16x2048, .f32⟩
  | .hbm, ⟨43, _⟩ => ⟨S512x2x16x1x2048, .f32⟩
  | .hbm, ⟨44, _⟩ => ⟨S512x2x16x2048, .f32⟩
  | .hbm, ⟨45, _⟩ => ⟨S512x2x16x2048, .f32⟩
  | .hbm, ⟨46, _⟩ => ⟨S512x2x16x2048, .f32⟩
  | _, _ => ⟨S513x2x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S513x2x16x2048_S512x2x16x2048_0_0_0_0 : S513x2x16x2048.Slices ![0, 0, 0, 0] S512x2x16x2048
  slices_S513x2x16x2048_S512x2x16x2048_1_0_0_0 : S513x2x16x2048.Slices ![1, 0, 0, 0] S512x2x16x2048
  bcast_S_S512x2x16x2048 : S_.BroadcastsInDim S512x2x16x2048 (![] : Fin 0 → Fin S512x2x16x2048.rank)
  shapeCasts_S512x2x16x6144_S512x2x16x3x2048 : S512x2x16x6144.ShapeCasts S512x2x16x3x2048
  reducesTo_S512x2x16x3x2048_S512x2x16x2048_d3 : S512x2x16x3x2048.ReducesTo [3] S512x2x16x2048
  h_S_ : 0 < S_.numel
  bcast_S512x2x16x2048_S512x2x16x1x2048_0_1_2_4 : S512x2x16x2048.BroadcastsInDim S512x2x16x1x2048 (![0, 1, 2, 4] : Fin 4 → Fin S512x2x16x1x2048.rank)
  bcast_S512x2x16x1x2048_S512x2x16x3x2048_0_1_2_3_4 : S512x2x16x1x2048.BroadcastsInDim S512x2x16x3x2048 (![0, 1, 2, 3, 4] : Fin 5 → Fin S512x2x16x3x2048.rank)
  slices_S512x2x16x3x2048_S512x2x16x1x2048_0_0_0_0_0 : S512x2x16x3x2048.Slices ![0, 0, 0, 0, 0] S512x2x16x1x2048
  shapeCasts_S512x2x16x1x2048_S512x2x16x2048 : S512x2x16x1x2048.ShapeCasts S512x2x16x2048
  slices_S512x2x16x3x2048_S512x2x16x1x2048_0_0_0_1_0 : S512x2x16x3x2048.Slices ![0, 0, 0, 1, 0] S512x2x16x1x2048
  slices_S512x2x16x3x2048_S512x2x16x1x2048_0_0_0_2_0 : S512x2x16x3x2048.Slices ![0, 0, 0, 2, 0] S512x2x16x1x2048
  dot_S512x2x16x2048_S2048x2048_S512x2x16x2048_3_1_012_0_n_n_wf : DotDims.WF S512x2x16x2048 S2048x2048 S512x2x16x2048 [3] [1] [0, 1, 2] [0] [] []
  dot_S512x2x16x2048_S6144x2048_S512x2x16x6144_3_1_012_0_n_n_wf : DotDims.WF S512x2x16x2048 S6144x2048 S512x2x16x6144 [3] [1] [0, 1, 2] [0] [] []

variable [Facts₀]

def dot_S512x2x16x2048_S2048x2048_S512x2x16x2048_3_1_012_0_n_n : DotDims S512x2x16x2048 S2048x2048 S512x2x16x2048 where
  lhsContracting := [3]
  rhsContracting := [1]
  lhsNonContracting := [0, 1, 2]
  rhsNonContracting := [0]
  lhsBatch := []
  rhsBatch := []
  wf := dot_S512x2x16x2048_S2048x2048_S512x2x16x2048_3_1_012_0_n_n_wf
def dot_S512x2x16x2048_S6144x2048_S512x2x16x6144_3_1_012_0_n_n : DotDims S512x2x16x2048 S6144x2048 S512x2x16x6144 where
  lhsContracting := [3]
  rhsContracting := [1]
  lhsNonContracting := [0, 1, 2]
  rhsNonContracting := [0]
  lhsBatch := []
  rhsBatch := []
  wf := dot_S512x2x16x2048_S6144x2048_S512x2x16x6144_3_1_012_0_n_n_wf

class Facts : Prop extends Facts₀ where

variable [Facts]
-- ==== Proof.Spec.lean ====
/-
  What the gated recurrent combination computes, as ONE function of the five argument arrays, on the extended reals.

  The sequence `x` has 513 nodes, each a batch of 2 × 16 hidden vectors of length 2048. Flattening (node, batch) to a
  row `r = 32·s + 16·a + b` of 16384 rows, row `r` pairs the LEFT node `s` with the RIGHT node `s + 1` at the same
  batch position. For an output column `q`:

    centre  c   = ∑ₕ left[h]·WL[q,h] + ∑ₕ right[h]·WR[q,h]
    gates   gᵢ  = ∑ₕ left[h]·GL[2048·i + q, h] + ∑ₕ right[h]·GR[2048·i + q, h]      (i = 0, 1, 2)
    result      = (left[q]·e₀ + right[q]·e₁ + σ(c)·e₂) / (e₀ + e₁ + e₂),   eᵢ = exp(gᵢ − max(max g₀ g₁) g₂)

  with σ the logistic function: the numerator accumulated first and divided once by the sum of the three weights.
-/
import Idealize.ShloMosaic.PureOps.Ideal
import Idealize.ShloMosaic.Lib.ValueIdx

noncomputable section

namespace Cert.GateSpec

open Idealize.ShloMosaic Idealize.ShloMosaic.ValueIdx

/-- The sequence: 513 nodes × (2 × 16) batch positions × 2048 hidden entries. -/
abbrev SX : Shape := ⟨4, ![513, 2, 16, 2048]⟩
/-- The result: one combined vector per pair of neighbouring nodes. -/
abbrev SO : Shape := ⟨4, ![512, 2, 16, 2048]⟩

/-- Every entry of an array is a real number: neither infinity occurs in it. -/
def RealValued {S : Shape} (x : S.Idx → EReal) : Prop := ∀ i, ∃ r : ℝ, x i = (r : EReal)

/-- Entry `h` of the LEFT node of row `r`: node `r / 32` at batch position `(r / 16 % 2, r % 16)`. -/
def left (x : SX.Idx → EReal) (r : Fin 16384) (h : Fin 2048) : EReal :=
  x (ix4 (⟨r.val / 32, by have := r.isLt; omega⟩ : Fin 513) (⟨r.val / 16 % 2, Nat.mod_lt _ (by decide)⟩ : Fin 2)
    (⟨r.val % 16, Nat.mod_lt _ (by decide)⟩ : Fin 16) h)

/-- Entry `h` of the RIGHT node of row `r`: the next node, `r / 32 + 1`, at the same batch position. -/
def right (x : SX.Idx → EReal) (r : Fin 16384) (h : Fin 2048) : EReal :=
  x (ix4 (⟨r.val / 32 + 1, by have := r.isLt; omega⟩ : Fin 513) (⟨r.val / 16 % 2, Nat.mod_lt _ (by decide)⟩ : Fin 2)
    (⟨r.val % 16, Nat.mod_lt _ (by decide)⟩ : Fin 16) h)

/-- Output column `k` of a pair of linear maps, `W` applied to the left node and `W'` to the right one, added:
    `∑ₕ left[h]·W[k,h] + ∑ₕ right[h]·W'[k,h]`. -/
def proj {K : ℕ} (x : SX.Idx → EReal) (W W' : (⟨2, ![K, 2048]⟩ : Shape).Idx → EReal) (r : Fin 16384) (k : Fin K) : EReal :=
  (∑ h : Fin 2048, left x r h * W (ix2 k h)) + ∑ h : Fin 2048, right x r h * W' (ix2 k h)

/-- Gate logit `i` of column `q`: column `2048·i + q` of the 6144-wide gate projection. -/
def gate (x : SX.Idx → EReal) (Gl Gr : (⟨2, ![6144, 2048]⟩ : Shape).Idx → EReal) (r : Fin 16384) (i : Fin 3) (q : Fin 2048) :
    EReal :=
  proj x Gl Gr r (⟨2048 * i.val + q.val, by have := i.isLt; have := q.isLt; omega⟩ : Fin 6144)

/-- Three values `l`, `r`, `σ(c)` combined with the softmax weights of three logits: the weighted numerator
    accumulated first, then divided once by the sum of the unnormalised weights. -/
def combine (l r c g0 g1 g2 : EReal) : EReal :=
  Ideal.div
    (l * Ideal.exp (g0 - max (max g0 g1) g2) + r * Ideal.exp (g1 - max (max g0 g1) g2)
      + Ideal.logistic c * Ideal.exp (g2 - max (max g0 g1) g2))
    (Ideal.exp (g0 - max (max g0 g1) g2) + Ideal.exp (g1 - max (max g0 g1) g2) + Ideal.exp (g2 - max (max g0 g1) g2))

/-- The result at row `r`, column `q`. -/
def outRow (x : SX.Idx → EReal) (Wl Wr : (⟨2, ![2048, 2048]⟩ : Shape).Idx → EReal)
    (Gl Gr : (⟨2, ![6144, 2048]⟩ : Shape).Idx → EReal) (r : Fin 16384) (q : Fin 2048) : EReal :=
  combine (left x r q) (right x r q) (proj x Wl Wr r q) (gate x Gl Gr r 0 q) (gate x Gl Gr r 1 q) (gate x Gl Gr r 2 q)

/-- The flat row of a (node, batch) position: `32·s + 16·a + b`. -/
def rowOf (s : Fin 512) (a : Fin 2) (b : Fin 16) : Fin 16384 :=
  ⟨32 * s.val + 16 * a.val + b.val, by have := s.isLt; have := a.isLt; have := b.isLt; omega⟩

/-- THE RESULT ARRAY: entry `(s, a, b, q)` is the combination at row `32·s + 16·a + b`, column `q`. -/
def G (x : SX.Idx → EReal) (Wl Wr : (⟨2, ![2048, 2048]⟩ : Shape).Idx → EReal)
    (Gl Gr : (⟨2, ![6144, 2048]⟩ : Shape).Idx → EReal) : SO.Idx → EReal :=
  fun i => outRow x Wl Wr Gl Gr (rowOf (i 0) (i 1) (i 2)) (i 3)

/-- The left node of row `32·s + 16·a + b` is node `s` at batch position `(a, b)`. -/
theorem left_rowOf (x : SX.Idx → EReal) (s : Fin 512) (a : Fin 2) (b : Fin 16) (h : Fin 2048) :
    left x (rowOf s a b) h = x (ix4 (⟨s.val, by have := s.isLt; omega⟩ : Fin 513) a b h) := by
  have hs := s.isLt; have ha := a.isLt; have hb := b.isLt
  unfold left rowOf
  congr 1
  funext d
  apply Fin.ext
  match d with
  | ⟨0, _⟩ => show (32 * s.val + 16 * a.val + b.val) / 32 = s.val; omega
  | ⟨1, _⟩ => show (32 * s.val + 16 * a.val + b.val) / 16 % 2 = a.val; omega
  | ⟨2, _⟩ => show (32 * s.val + 16 * a.val + b.val) % 16 = b.val; omega
  | ⟨3, _⟩ => rfl

/-- The right node of row `32·s + 16·a + b` is node `s + 1` at batch position `(a, b)`. -/
theorem right_rowOf (x : SX.Idx → EReal) (s : Fin 512) (a : Fin 2) (b : Fin 16) (h : Fin 2048) :
    right x (rowOf s a b) h = x (ix4 (⟨s.val + 1, by have := s.isLt; omega⟩ : Fin 513) a b h) := by
  have hs := s.isLt; have ha := a.isLt; have hb := b.isLt
  unfold right rowOf
  congr 1
  funext d
  apply Fin.ext
  match d with
  | ⟨0, _⟩ => show (32 * s.val + 16 * a.val + b.val) / 32 + 1 = s.val + 1; omega
  | ⟨1, _⟩ => show (32 * s.val + 16 * a.val + b.val) / 16 % 2 = a.val; omega
  | ⟨2, _⟩ => show (32 * s.val + 16 * a.val + b.val) % 16 = b.val; omega
  | ⟨3, _⟩ => rfl

end Cert.GateSpec

end
-- ==== Proof.FiniteInputs.lean ====
/-
  From the precondition to "every entry of every argument array is a real number".

  The precondition compares, entry by entry, the absolute value |x| = max x (-x) with +∞ (the word 0x7F800000), reduces each
  array of comparisons by `and` over all of its axes, and `and`s the five results together; it says that the outcome is 1.
  Hence every single comparison is 1: |x| < ⊤ at every entry of each of the five arrays. An extended real whose absolute
  value is below ⊤ is neither infinity, so it is a real number.
-/
import proofs.«145906_j5626407157789_2_alg».proof.Defs
import proofs.«145906_j5626407157789_2_alg».proof.Proof.Spec
import Idealize.ShloMosaic.Lib.ReduceAll

noncomputable section

namespace Cert.FiniteInputs

open Idealize.ShloMosaic Idealize.ShloMosaic.ValueIdx Idealize.SL.Sem

/-- An array of rank 0 has exactly one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value `max x (-x)` compares below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- One `jnp.all(|x| < inf)` that came out 1: every entry of `x` is a real number. -/
theorem realValued_of_all {S : Shape} {axes : List (Fin S.rank)} (x : S.Idx → EReal)
    (hb : Cert.Pre_finite_inputs.S_.BroadcastsInDim S (![] : Fin 0 → Fin S.rank))
    (hr : S.ReducesTo axes Cert.Pre_finite_inputs.S_) (h0 : 0 < Cert.Pre_finite_inputs.S_.numel)
    (e : Host.reduce IntOp.andi
          (cmpf (F := Ideal) (φ := .f32) .olt (Host.absf (F := Ideal) (φ := .f32) x)
            (broadcastInDim S ![] hb (constant (F := Ideal) Cert.Pre_finite_inputs.S_ .f32 0x7F800000#32)))
          (constantI Cert.Pre_finite_inputs.S_ 1 1#1) hr h0 ix0 = 1#1) :
    Cert.GateSpec.RealValued x := fun i =>
  real_of_abs_lt (x i) (Host.reduce_andi_all _ _ hr h0 ix0 e i)

/-- THE PRECONDITION DECODED: each of the five argument arrays holds real numbers only. -/
theorem realValued_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.GateSpec.RealValued (m ((c.tc : Thread _ Cert.KernelIdeal.τ).loc Cert.KernelIdeal.main_arg0))
    ∧ Cert.GateSpec.RealValued (m ((c.tc : Thread _ Cert.KernelIdeal.τ).loc Cert.KernelIdeal.main_arg1))
    ∧ Cert.GateSpec.RealValued (m ((c.tc : Thread _ Cert.KernelIdeal.τ).loc Cert.KernelIdeal.main_arg2))
    ∧ Cert.GateSpec.RealValued (m ((c.tc : Thread _ Cert.KernelIdeal.τ).loc Cert.KernelIdeal.main_arg3))
    ∧ Cert.GateSpec.RealValued (m ((c.tc : Thread _ Cert.KernelIdeal.τ).loc Cert.KernelIdeal.main_arg4)) := by
  have e := congrFun (hpre c) ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨realValued_of_all _ _ _ _ h0, realValued_of_all _ _ _ _ h1, realValued_of_all _ _ _ _ h2,
    realValued_of_all _ _ _ _ h3, realValued_of_all _ _ _ _ h4⟩

end Cert.FiniteInputs

end
-- ==== Proof.GateLaw.lean ====
/-
  The one law over the reals that joins the two arrangements of the gated combination.

  With three non-negative weights e0, e1, e2 of sum d ≠ 0, a numerator accumulated first and divided once,
  (l·e0 + r·e1 + c·e2) / d, is the combination with the three normalised weights,
  l·(e0/d) + r·(e1/d) + c·(e2/d).
-/
import Mathlib.Tactic.FieldSimp
import Mathlib.Tactic.Ring
import Mathlib.Data.Real.Basic

namespace GateLaw

/-- Dividing the accumulated numerator once is weighting each term by its normalised weight. -/
theorem combine_div (l r c e0 e1 e2 d : ℝ) (hd : d ≠ 0) :
    (l * e0 + r * e1 + c * e2) / d = l * (e0 / d) + r * (e1 / d) + c * (e2 / d) := by
  field_simp

end GateLaw
-- ==== Proof.LibFocalAlgebra.lean ====
/-
  The algebra behind a class-balanced focal loss, over abstract finite index types.

  Rows `i : I` carry a picked softmax probability `p i`, its logarithm `L i` and a weight `q i` (a power of
  `1 - p i`); samples `j : J` carry a class weight `a j` that depends on the sample's class only through how many
  samples share that class. Four facts:

  * a sum of real numbers taken in the reals and then read as an extended real is the sum of the summands read as
    extended reals (`coe_finset_sum`, `coe_fintype_sum`);
  * the double sum `∑ i, ∑ j, ((-a j) * q i) * L i` factors as `(∑ j, a j) * ∑ i, q i * (0 - L i)`: the distributive
    law, which holds in the reals (and fails on the extended reals when an infinity meets a zero), stated in the reals
    and read on finite extended reals (`sum_sum_neg_mul_mul`, `ereal_sum_sum_neg_mul_mul`);
  * double counting: summing a function of the class over the samples is summing it over the classes with
    multiplicity (`sum_comp_eq_sum_card_mul`), so the weights `1 - (count of j's class / N) / 10` sum to
    `N - (∑ c, count c * count c) / (10 * N)` (`sum_one_sub_count_div`);
  * picking one entry of a softmax: for positive `e`, `log (e k) - log (∑ e) = log (e k / ∑ e)`, its exponential is
    `e k / ∑ e`, and the sum of the normalised entries against a one-hot row is the picked normalised entry
    (`log_sub_log_sum`, `exp_log_sub_log_sum`, `sum_div_mul_ite`); with them the ideal float operations at finite
    arguments (`ideal_log_coe_pos`, `ideal_div_coe_coe`, `ideal_pow_coe_two`, `ideal_exp_coe`).
-/
import Idealize.ShloMosaic.PureOps.Ideal

noncomputable section

open scoped BigOperators

namespace Idealize.ShloMosaic.FocalAlgebra

open Idealize.ShloMosaic

/-! ## Sums of reals read as extended reals -/

/-- The coercion of the reals into the extended reals commutes with a sum over a finite set. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with a sum over a finite type. -/
theorem coe_fintype_sum {ι : Type*} [Fintype ι] (f : ι → ℝ) :
    ((∑ i, f i : ℝ) : EReal) = ∑ i, (f i : EReal) :=
  coe_finset_sum Finset.univ f

/-! ## The double sum factors -/

/-- Over the reals, `∑ i, ∑ j, ((-a j) * q i) * L i = (∑ j, a j) * ∑ i, q i * (0 - L i)`: every summand is
    `a j * (q i * (0 - L i))`, and a product of two finite sums is the double sum of the products. -/
theorem sum_sum_neg_mul_mul {I J : Type*} [Fintype I] [Fintype J] (a : J → ℝ) (q L : I → ℝ) :
    ∑ i, ∑ j, ((-a j) * q i) * L i = (∑ j, a j) * ∑ i, q i * (0 - L i) := by
  rw [Finset.sum_mul_sum, Finset.sum_comm]
  refine Finset.sum_congr rfl fun j _ => Finset.sum_congr rfl fun i _ => ?_
  ring

/-- The same on extended reals that are finite: the double sum of `((-a j) * q i) * L i`, each factor a real read
    as an extended real, is the real `(∑ j, a j) * ∑ i, q i * (0 - L i)` read as an extended real. -/
theorem ereal_sum_sum_neg_mul_mul {I J : Type*} [Fintype I] [Fintype J] (a : J → ℝ) (q L : I → ℝ) :
    ∑ i, ∑ j, ((-(a j : EReal)) * (q i : EReal)) * (L i : EReal)
      = (((∑ j, a j) * ∑ i, q i * (0 - L i) : ℝ) : EReal) := by
  rw [← sum_sum_neg_mul_mul, coe_fintype_sum]
  refine Finset.sum_congr rfl fun i _ => ?_
  rw [coe_fintype_sum]
  refine Finset.sum_congr rfl fun j _ => ?_
  rw [EReal.coe_mul, EReal.coe_mul, EReal.coe_neg]

/-! ## Double counting -/

/-- Summing `f (t j)` over the samples `j` is summing `f c` over the classes `c`, each as many times as there are
    samples of class `c`. -/
theorem sum_comp_eq_sum_card_mul {I C : Type*} [Fintype I] [Fintype C] [DecidableEq C] (t : I → C) (f : C → ℝ) :
    ∑ j, f (t j) = ∑ c, ((Finset.univ.filter fun j => t j = c).card : ℝ) * f c := by
  rw [← Finset.sum_fiberwise Finset.univ t fun j => f (t j)]
  refine Finset.sum_congr rfl fun c _ => ?_
  have h : ∀ j ∈ Finset.univ.filter (fun j => t j = c), f (t j) = f c := fun j hj => by
    rw [(Finset.mem_filter.mp hj).2]
  rw [Finset.sum_congr rfl h, Finset.sum_const, nsmul_eq_mul]

/-- The class weights `1 - (count of j's class / N) / 10`, summed over the `N` samples, are
    `N - (∑ c, count c * count c) / (10 * N)`: the sum of the counts of the samples' classes is the sum of the
    squared counts. -/
theorem sum_one_sub_count_div {I C : Type*} [Fintype I] [Fintype C] [DecidableEq C] (t : I → C) (N : ℝ)
    (hN : (Fintype.card I : ℝ) = N) :
    ∑ j, (1 - ((Finset.univ.filter fun k => t k = t j).card : ℝ) / N / 10)
      = N - (∑ c, ((Finset.univ.filter fun k => t k = c).card : ℝ) * ((Finset.univ.filter fun k => t k = c).card : ℝ))
          / (10 * N) := by
  rw [Finset.sum_sub_distrib, Finset.sum_const, Finset.card_univ, nsmul_eq_mul, mul_one, hN]
  refine congrArg (N - ·) ?_
  rw [← Finset.sum_div, ← Finset.sum_div,
    sum_comp_eq_sum_card_mul t fun c => ((Finset.univ.filter fun k => t k = c).card : ℝ), div_div, mul_comm N 10]

/-! ## One entry of a softmax -/

section Softmax

variable {C : Type*} [Fintype C]

/-- A sum of positive terms over an inhabited finite type is positive. -/
theorem sum_pos_of_pos (e : C → ℝ) (he : ∀ c, 0 < e c) (k : C) : 0 < ∑ c, e c :=
  Finset.sum_pos (fun c _ => he c) ⟨k, Finset.mem_univ k⟩

/-- For positive `e`: `log (e k) - log (∑ c, e c) = log (e k / ∑ c, e c)`. -/
theorem log_sub_log_sum (e : C → ℝ) (he : ∀ c, 0 < e c) (k : C) :
    Real.log (e k) - Real.log (∑ c, e c) = Real.log (e k / ∑ c, e c) :=
  (Real.log_div (he k).ne' (sum_pos_of_pos e he k).ne').symm

/-- For positive `e`: the exponential of `log (e k) - log (∑ c, e c)` is `e k / ∑ c, e c`. -/
theorem exp_log_sub_log_sum (e : C → ℝ) (he : ∀ c, 0 < e c) (k : C) :
    Real.exp (Real.log (e k) - Real.log (∑ c, e c)) = e k / ∑ c, e c := by
  rw [Real.exp_sub, Real.exp_log (he k), Real.exp_log (sum_pos_of_pos e he k)]

/-- For positive `e` the picked normalised entry `e k / ∑ c, e c` is positive. -/
theorem div_sum_pos (e : C → ℝ) (he : ∀ c, 0 < e c) (k : C) : 0 < e k / ∑ c, e c :=
  div_pos (he k) (sum_pos_of_pos e he k)

/-- The normalised entries `e c / Z` summed against the one-hot row of `k` give the picked entry `e k / Z`. -/
theorem sum_div_mul_ite [DecidableEq C] (e : C → ℝ) (k : C) (Z : ℝ) :
    ∑ c, (e c / Z) * (if c = k then (1 : ℝ) else 0) = e k / Z := by
  simp only [mul_ite, mul_one, mul_zero, Finset.sum_ite_eq', Finset.mem_univ, if_true]

end Softmax

/-! ## The ideal float operations at finite arguments -/

/-- The ideal exponential of a real is the real exponential. -/
theorem ideal_exp_coe (r : ℝ) : Ideal.exp (r : EReal) = (Real.exp r : EReal) := rfl

/-- The ideal logarithm of a positive real is the real logarithm. -/
theorem ideal_log_coe_pos {r : ℝ} (h : 0 < r) : Ideal.log (r : EReal) = (Real.log r : EReal) := by
  rw [Ideal.log_coe, if_neg (not_le.mpr h)]

/-- The ideal quotient of two reals, the divisor not zero, is the real quotient. -/
theorem ideal_div_coe_coe (x : ℝ) {y : ℝ} (hy : y ≠ 0) : Ideal.div (x : EReal) (y : EReal) = ((x / y : ℝ) : EReal) := by
  rw [Ideal.div_coe hy, ← EReal.coe_mul, mul_one_div]

/-- The ideal power of a real with exponent two is the real times itself. -/
theorem ideal_pow_coe_two (x : ℝ) : Ideal.pow (x : EReal) ((2 : ℝ) : EReal) = ((x * x : ℝ) : EReal) := by
  rw [Ideal.pow_coe_coe, Real.rpow_eq_pow, Real.rpow_two, sq]

end Idealize.ShloMosaic.FocalAlgebra

end
-- ==== Proof.RefSideAlgebra.lean ====
/-
  The gated combination on real arguments: the two arrangements agree.

  The specification accumulates the numerator l·e₀ + r·e₁ + σ(c)·e₂ and divides it once by d = e₀ + e₁ + e₂.
  The other arrangement normalises the three weights first and then combines: l·(e₀/d) + r·(e₁/d) + σ(c)·(e₂/d).
  On the extended reals the two differ when an infinity meets a zero; on real arguments every intermediate value is
  a real number (the weights are exponentials, so d > 0) and the two agree by the distributive law of the reals.

  Also here: a fold of a commutative, associative operation over three values; a finite sum of products of reals is
  a real; the projections and gate logits of the specification are real when the arrays are.
-/
import proofs.«145906_j5626407157789_2_alg».proof.Proof.Spec
import proofs.«145906_j5626407157789_2_alg».proof.Proof.GateLaw
import proofs.«145906_j5626407157789_2_alg».proof.Proof.LibFocalAlgebra

noncomputable section

open scoped BigOperators

namespace Cert.RefSide

open Idealize.ShloMosaic Idealize.ShloMosaic.ValueIdx Idealize.ShloMosaic.FocalAlgebra Cert.GateSpec

/-! ## A fold over three values -/

/-- A fold over `Fin 3` of a commutative, associative `f` from `b` is `f (g 0) (f (g 1) (f (g 2) b))`. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The maximum of three extended reals, folded from −∞ and then joined with −∞ once more, is `max (max g0 g1) g2`. -/
theorem max_bot_fold_max (g : Fin 3 → EReal) :
    max ⊥ ((Finset.univ : Finset (Fin 3)).fold max ⊥ g) = max (max (g 0) (g 1)) (g 2) := by
  rw [fold_univ_fin3, max_bot_left, max_bot_right, max_assoc]

/-! ## Sums of products of reals -/

/-- A finite sum of products of extended reals that are real is real. -/
theorem sum_mul_real {n : ℕ} (f g : Fin n → EReal) (hf : ∀ h, ∃ r : ℝ, f h = (r : EReal)) (hg : ∀ h, ∃ r : ℝ, g h = (r : EReal)) :
    ∃ r : ℝ, ∑ h, f h * g h = (r : EReal) := by
  choose a ha using hf
  choose b hb using hg
  refine ⟨∑ h, a h * b h, ?_⟩
  rw [coe_fintype_sum]
  refine Finset.sum_congr rfl fun h _ => ?_
  rw [ha, hb, EReal.coe_mul]

/-- A projection of real arrays is real. -/
theorem proj_real {K : ℕ} (x : SX.Idx → EReal) (W W' : (⟨2, ![K, 2048]⟩ : Shape).Idx → EReal) (hx : RealValued x) (hW : RealValued W)
    (hW' : RealValued W') (r : Fin 16384) (k : Fin K) : ∃ v : ℝ, proj x W W' r k = (v : EReal) := by
  obtain ⟨a, ha⟩ := sum_mul_real (fun h => left x r h) (fun h => W (ix2 k h)) (fun h => hx _) (fun h => hW _)
  obtain ⟨b, hb⟩ := sum_mul_real (fun h => right x r h) (fun h => W' (ix2 k h)) (fun h => hx _) (fun h => hW' _)
  exact ⟨a + b, by unfold proj; rw [ha, hb, EReal.coe_add]⟩

/-- A gate logit of real arrays is real. -/
theorem gate_real (x : SX.Idx → EReal) (Gl Gr : (⟨2, ![6144, 2048]⟩ : Shape).Idx → EReal) (hx : RealValued x) (hl : RealValued Gl)
    (hr : RealValued Gr) (r : Fin 16384) (i : Fin 3) (q : Fin 2048) : ∃ v : ℝ, gate x Gl Gr r i q = (v : EReal) :=
  proj_real x Gl Gr hx hl hr r _

/-! ## The two arrangements on real arguments -/

/-- On real arguments, the numerator accumulated first and divided once is the combination with the three
    normalised weights: every intermediate value is real, the divisor a sum of exponentials, hence positive. -/
theorem combine_real (l r c g0 g1 g2 : ℝ) :
    combine (l : EReal) (r : EReal) (c : EReal) (g0 : EReal) (g1 : EReal) (g2 : EReal)
      = (l : EReal) * Ideal.div (Ideal.exp ((g0 : EReal) - max (max (g0 : EReal) g1) g2))
            (Ideal.exp ((g0 : EReal) - max (max (g0 : EReal) g1) g2) + Ideal.exp ((g1 : EReal) - max (max (g0 : EReal) g1) g2)
              + Ideal.exp ((g2 : EReal) - max (max (g0 : EReal) g1) g2))
        + (r : EReal) * Ideal.div (Ideal.exp ((g1 : EReal) - max (max (g0 : EReal) g1) g2))
            (Ideal.exp ((g0 : EReal) - max (max (g0 : EReal) g1) g2) + Ideal.exp ((g1 : EReal) - max (max (g0 : EReal) g1) g2)
              + Ideal.exp ((g2 : EReal) - max (max (g0 : EReal) g1) g2))
        + Ideal.logistic (c : EReal) * Ideal.div (Ideal.exp ((g2 : EReal) - max (max (g0 : EReal) g1) g2))
            (Ideal.exp ((g0 : EReal) - max (max (g0 : EReal) g1) g2) + Ideal.exp ((g1 : EReal) - max (max (g0 : EReal) g1) g2)
              + Ideal.exp ((g2 : EReal) - max (max (g0 : EReal) g1) g2)) := by
  unfold combine
  have hm : max (max (g0 : EReal) g1) g2 = ((max (max g0 g1) g2 : ℝ) : EReal) := by
    rw [EReal.coe_strictMono.monotone.map_max, EReal.coe_strictMono.monotone.map_max]
  have h0 := Real.exp_pos (g0 - max (max g0 g1) g2)
  have h1 := Real.exp_pos (g1 - max (max g0 g1) g2)
  have h2 := Real.exp_pos (g2 - max (max g0 g1) g2)
  have hd : Real.exp (g0 - max (max g0 g1) g2) + Real.exp (g1 - max (max g0 g1) g2) + Real.exp (g2 - max (max g0 g1) g2) ≠ 0 :=
    (add_pos (add_pos h0 h1) h2).ne'
  rw [hm, Ideal.logistic_coe]
  simp only [← EReal.coe_sub, ideal_exp_coe, ← EReal.coe_mul, ← EReal.coe_add]
  simp only [ideal_div_coe_coe _ hd, ← EReal.coe_mul, ← EReal.coe_add]
  exact congrArg Real.toEReal (GateLaw.combine_div _ _ _ _ _ _ _ hd)

end Cert.RefSide

end
-- ==== Proof.RefSide.lean ====
/-
  The reference side: on real-valued arguments the reference program computes the specification's array `G`.

  The reference forms, for every row (s, a, b) and column q: the left and right nodes by two slices of the sequence;
  the centre's pre-activation c and the 6144-wide gate projection as sums of products over the hidden axis; the
  centre value 1 / (1 + exp (−c)), which is the logistic function of c; the gate projection reshaped 6144 → 3 × 2048,
  so that gate i of column q is column 2048·i + q; a softmax over the three gates — their maximum (a fold of max from
  −∞, joined with −∞ once more), the exponentials of the logits minus it, their sum from zero, the quotients —; the
  three normalised weights sliced out; and the result left·w₀ + right·w₁ + centre·w₂.

  Each stage is read at an index built from its coordinates, outermost stage last, until the result at (s, a, b, q)
  is the three values weighted by their normalised weights, in terms of the specification's `left`, `right`, `proj`
  and `gate`. That much is rewriting and index arithmetic. The one step that needs the arguments real is the last:
  the normalised-weights arrangement equals the specification's divide-once arrangement on real numbers
  (`combine_real`), where the divisor, a sum of three exponentials, is positive.
-/
import proofs.«145906_j5626407157789_2_alg».proof.Proof.Gen.ReferenceIdeal.Read
import proofs.«145906_j5626407157789_2_alg».proof.Proof.Spec
import proofs.«145906_j5626407157789_2_alg».proof.Proof.RefSideAlgebra

noncomputable section

open scoped BigOperators

namespace Cert.RefSide

open Cert.ReferenceIdeal Cert.ReferenceIdeal.Read Cert.GateSpec Idealize.ShloMosaic Idealize.ShloMosaic.ValueIdx

/-! ## The two slices: the left and the right node of a row -/

/-- The first slice, nodes 0 … 511, at `(s, a, b, h)` is entry `h` of the left node of row `32·s + 16·a + b`. -/
theorem v0_at (x0 : (⟨S513x2x16x2048, .f32⟩ : BufTy).Contents (Elt Ideal)) (s : Fin 512) (a : Fin 2) (b : Fin 16) (h : Fin 2048) :
    val_main_v0 (F := Ideal) x0 (ix4 s a b h) = left x0 (rowOf s a b) h := by
  rw [val_main_v0_apply, left_rowOf]
  refine congrArg x0 (funext fun d => ?_)
  match d with
  | ⟨0, _⟩ => rfl
  | ⟨1, _⟩ => rfl
  | ⟨2, _⟩ => rfl
  | ⟨3, _⟩ => rfl

/-- The second slice, nodes 1 … 512, at `(s, a, b, h)` is entry `h` of the right node of that row. -/
theorem v1_at (x0 : (⟨S513x2x16x2048, .f32⟩ : BufTy).Contents (Elt Ideal)) (s : Fin 512) (a : Fin 2) (b : Fin 16) (h : Fin 2048) :
    val_main_v1 (F := Ideal) x0 (ix4 s a b h) = right x0 (rowOf s a b) h := by
  rw [val_main_v1_apply, right_rowOf]
  refine congrArg x0 (funext fun d => ?_)
  match d with
  | ⟨0, _⟩ => exact Fin.ext (by show 1 + s.val = s.val + 1; omega)
  | ⟨1, _⟩ => rfl
  | ⟨2, _⟩ => rfl
  | ⟨3, _⟩ => rfl

/-! ## The projections -/

/-- The centre's pre-activation at `(s, a, b, q)`: column `q` of the pair of linear maps. -/
theorem v4_at (x0 : (⟨S513x2x16x2048, .f32⟩ : BufTy).Contents (Elt Ideal)) (x1 x2 : (⟨S2048x2048, .f32⟩ : BufTy).Contents (Elt Ideal))
    (s : Fin 512) (a : Fin 2) (b : Fin 16) (q : Fin 2048) :
    val_main_v4 (F := Ideal) x0 x1 x2 (ix4 s a b q) = proj x0 x1 x2 (rowOf s a b) q := by
  rw [val_main_v4_apply, val_main_v2_apply, val_main_v3_apply]
  unfold proj
  refine congrArg₂ (· + ·) (Finset.sum_congr rfl fun k _ => ?_) (Finset.sum_congr rfl fun k _ => ?_)
  · refine congrArg₂ (· * ·) ((congrArg (val_main_v0 (F := Ideal) x0) ?_).trans (v0_at x0 s a b k)) (congrArg x1 ?_)
    · funext d; match d with | ⟨0, _⟩ => rfl | ⟨1, _⟩ => rfl | ⟨2, _⟩ => rfl | ⟨3, _⟩ => rfl
    · funext d; match d with | ⟨0, _⟩ => rfl | ⟨1, _⟩ => rfl
  · refine congrArg₂ (· * ·) ((congrArg (val_main_v1 (F := Ideal) x0) ?_).trans (v1_at x0 s a b k)) (congrArg x2 ?_)
    · funext d; match d with | ⟨0, _⟩ => rfl | ⟨1, _⟩ => rfl | ⟨2, _⟩ => rfl | ⟨3, _⟩ => rfl
    · funext d; match d with | ⟨0, _⟩ => rfl | ⟨1, _⟩ => rfl

/-- The 6144-wide gate projection at `(s, a, b, k)`: column `k` of the pair of gate maps. -/
theorem v13_at (x0 : (⟨S513x2x16x2048, .f32⟩ : BufTy).Contents (Elt Ideal)) (x3 x4 : (⟨S6144x2048, .f32⟩ : BufTy).Contents (Elt Ideal))
    (s : Fin 512) (a : Fin 2) (b : Fin 16) (k : Fin 6144) :
    val_main_v13 (F := Ideal) x0 x3 x4 (ix4 s a b k) = proj x0 x3 x4 (rowOf s a b) k := by
  rw [val_main_v13_apply, val_main_v11_apply, val_main_v12_apply]
  unfold proj
  refine congrArg₂ (· + ·) (Finset.sum_congr rfl fun h _ => ?_) (Finset.sum_congr rfl fun h _ => ?_)
  · refine congrArg₂ (· * ·) ((congrArg (val_main_v0 (F := Ideal) x0) ?_).trans (v0_at x0 s a b h)) (congrArg x3 ?_)
    · funext d; match d with | ⟨0, _⟩ => rfl | ⟨1, _⟩ => rfl | ⟨2, _⟩ => rfl | ⟨3, _⟩ => rfl
    · funext d; match d with | ⟨0, _⟩ => rfl | ⟨1, _⟩ => rfl
  · refine congrArg₂ (· * ·) ((congrArg (val_main_v1 (F := Ideal) x0) ?_).trans (v1_at x0 s a b h)) (congrArg x4 ?_)
    · funext d; match d with | ⟨0, _⟩ => rfl | ⟨1, _⟩ => rfl | ⟨2, _⟩ => rfl | ⟨3, _⟩ => rfl
    · funext d; match d with | ⟨0, _⟩ => rfl | ⟨1, _⟩ => rfl

/-- The reshape 6144 → 3 × 2048: gate logit `i` of column `q` is column `2048·i + q` of the gate projection. -/
theorem v14_at (x0 : (⟨S513x2x16x2048, .f32⟩ : BufTy).Contents (Elt Ideal)) (x3 x4 : (⟨S6144x2048, .f32⟩ : BufTy).Contents (Elt Ideal))
    (s : Fin 512) (a : Fin 2) (b : Fin 16) (i : Fin 3) (q : Fin 2048) :
    val_main_v14 (F := Ideal) x0 x3 x4 (ix5 s a b i q) = gate x0 x3 x4 (rowOf s a b) i q := by
  have hs := s.isLt; have ha := a.isLt; have hb := b.isLt; have hi := i.isLt; have hq := q.isLt
  rw [val_main_v14_apply]
  unfold gate
  refine (congrArg (val_main_v13 (F := Ideal) x0 x3 x4) ?_).trans (v13_at x0 x3 x4 s a b _)
  funext d
  apply Fin.ext
  match d with
  | ⟨0, _⟩ => show ((((s.val * 2 + a.val) * 16 + b.val) * 3 + i.val) * 2048 + q.val) / 196608 = s.val; omega
  | ⟨1, _⟩ => show ((((s.val * 2 + a.val) * 16 + b.val) * 3 + i.val) * 2048 + q.val) / 98304 % 2 = a.val; omega
  | ⟨2, _⟩ => show ((((s.val * 2 + a.val) * 16 + b.val) * 3 + i.val) * 2048 + q.val) / 6144 % 16 = b.val; omega
  | ⟨3, _⟩ => show ((((s.val * 2 + a.val) * 16 + b.val) * 3 + i.val) * 2048 + q.val) % 6144 = 2048 * i.val + q.val; omega

/-! ## The float literals -/

/-- The bit pattern 0xFF800000 is −∞. -/
theorem bits_neg_inf : Ideal.ofBits .f32 0xFF800000#32 = (⊥ : EReal) := by simp [Ideal.ofBits, Ideal.ieee]

/-- The bit pattern 0x3F800000 is 1. -/
theorem bits_one : Ideal.ofBits .f32 0x3F800000#32 = (1 : EReal) := by simp [Ideal.ofBits, Ideal.ieee, -EReal.coe_mul]; norm_num

/-! ## The maximum over the three gates -/

/-- A maximum-reduce over the axis of the three gates, at `(s, a, b, q)`, is the fold of `max` over the three
    entries `(s, a, b, i, q)` from the initial value. -/
theorem reduce_max_at (y : S512x2x16x3x2048.Idx → Ideal .f32) (init : S_.Idx → Ideal .f32)
    (h' : S512x2x16x3x2048.ReducesTo [3] S512x2x16x2048) (hu : 0 < S_.numel) (s : Fin 512) (a : Fin 2) (b : Fin 16) (q : Fin 2048) :
    Host.reduce (α := Ideal .f32) FloatOps.maximumf y init h' hu (ix4 s a b q)
      = (Finset.univ : Finset (Fin 3)).fold max (init (Shape.Idx.first hu)) (fun i => y (ix5 s a b i q)) := by
  have h : S512x2x16x3x2048.Reduces [3] S512x2x16x2048 := by decide
  refine (Host.reduce_eq_fold_single (α := Ideal .f32) FloatOps.maximumf y init h' h hu (ix4 s a b q)).trans ?_
  show (Finset.univ : Finset (Fin 3)).fold max (init (Shape.Idx.first hu)) (fun i => y (h.lift (ix4 s a b q) i)) = _
  refine congrArg (fun g => (Finset.univ : Finset (Fin 3)).fold max (init (Shape.Idx.first hu)) g) (funext fun i => congrArg y ?_)
  funext d
  apply Fin.ext
  match d with
  | ⟨0, _⟩ => rfl
  | ⟨1, _⟩ => rfl
  | ⟨2, _⟩ => rfl
  | ⟨3, _⟩ => rfl
  | ⟨4, _⟩ => rfl

/-- The maximum of the three gate logits at `(s, a, b, q)`, as the reference takes it: folded from −∞, then joined
    with −∞ once more. -/
theorem v17_at (x0 : (⟨S513x2x16x2048, .f32⟩ : BufTy).Contents (Elt Ideal)) (x3 x4 : (⟨S6144x2048, .f32⟩ : BufTy).Contents (Elt Ideal))
    (s : Fin 512) (a : Fin 2) (b : Fin 16) (q : Fin 2048) :
    val_main_v17 (F := Ideal) x0 x3 x4 (ix4 s a b q)
      = max (max (gate x0 x3 x4 (rowOf s a b) 0 q) (gate x0 x3 x4 (rowOf s a b) 1 q)) (gate x0 x3 x4 (rowOf s a b) 2 q) := by
  rw [val_main_v17_apply, val_main_v16_apply, val_main_cst_2_apply]
  unfold val_main_v15
  rw [reduce_max_at, val_main_cst_1_apply]
  show max (Ideal.ofBits .f32 0xFF800000#32)
      ((Finset.univ : Finset (Fin 3)).fold max (Ideal.ofBits .f32 0xFF800000#32) fun i => val_main_v14 (F := Ideal) x0 x3 x4 (ix5 s a b i q)) = _
  rw [bits_neg_inf, max_bot_fold_max, v14_at, v14_at, v14_at]

/-! ## The softmax over the three gates -/

/-- The maximum of the three gate logits of row `r`, column `q`. -/
def gmax (x : SX.Idx → EReal) (Gl Gr : (⟨2, ![6144, 2048]⟩ : Shape).Idx → EReal) (r : Fin 16384) (q : Fin 2048) : EReal :=
  max (max (gate x Gl Gr r 0 q) (gate x Gl Gr r 1 q)) (gate x Gl Gr r 2 q)

/-- The unnormalised weight of gate `i`: the exponential of its logit minus the maximum. -/
def wexp (x : SX.Idx → EReal) (Gl Gr : (⟨2, ![6144, 2048]⟩ : Shape).Idx → EReal) (r : Fin 16384) (i : Fin 3) (q : Fin 2048) : EReal :=
  Ideal.exp (gate x Gl Gr r i q - gmax x Gl Gr r q)

/-- The sum of the three unnormalised weights. -/
def wsum (x : SX.Idx → EReal) (Gl Gr : (⟨2, ![6144, 2048]⟩ : Shape).Idx → EReal) (r : Fin 16384) (q : Fin 2048) : EReal :=
  wexp x Gl Gr r 0 q + wexp x Gl Gr r 1 q + wexp x Gl Gr r 2 q

/-- The exponential of gate `i` minus the maximum, at `(s, a, b, i, q)`: the maximum is broadcast back over the
    axis of the three gates. -/
theorem v21_at (x0 : (⟨S513x2x16x2048, .f32⟩ : BufTy).Contents (Elt Ideal)) (x3 x4 : (⟨S6144x2048, .f32⟩ : BufTy).Contents (Elt Ideal)) (s : Fin 512) (a : Fin 2) (b : Fin 16) (i : Fin 3) (q : Fin 2048) :
    val_main_v21 (F := Ideal) x0 x3 x4 (ix5 s a b i q) = wexp x0 x3 x4 (rowOf s a b) i q := by
  rw [val_main_v21_apply, val_main_v20_apply, val_main_v19_apply, val_main_v18_apply, v14_at]
  have e : idx_main_v18 (idx_main_v19 (ix5 s a b i q)) = ix4 s a b q := by
    funext d; match d with | ⟨0, _⟩ => rfl | ⟨1, _⟩ => rfl | ⟨2, _⟩ => rfl | ⟨3, _⟩ => rfl
  rw [e, v17_at]
  rfl

/-- The softmax denominator at `(s, a, b, q)`: zero plus the sum over the three gates. -/
theorem v22_at (x0 : (⟨S513x2x16x2048, .f32⟩ : BufTy).Contents (Elt Ideal)) (x3 x4 : (⟨S6144x2048, .f32⟩ : BufTy).Contents (Elt Ideal)) (s : Fin 512) (a : Fin 2) (b : Fin 16) (q : Fin 2048) :
    val_main_v22 (F := Ideal) x0 x3 x4 (ix4 s a b q) = wsum x0 x3 x4 (rowOf s a b) q := by
  rw [val_main_v22_apply, val_main_cst_3_apply, Fin.sum_univ_three]
  have e : ∀ k : Fin 3, idx_main_v22 (ix4 s a b q) k = ix5 s a b k q := fun k => by
    funext d; match d with | ⟨0, _⟩ => rfl | ⟨1, _⟩ => rfl | ⟨2, _⟩ => rfl | ⟨3, _⟩ => rfl | ⟨4, _⟩ => rfl
  rw [e, e, e, v21_at, v21_at, v21_at]
  show Ideal.ofBits .f32 0x00000000#32 + _ = _
  rw [Ideal.ofBits_zero_f32, zero_add]
  rfl

/-- The normalised weight of gate `i` at `(s, a, b, i, q)`: the denominator is broadcast back over the axis of the
    three gates. -/
theorem v25_at (x0 : (⟨S513x2x16x2048, .f32⟩ : BufTy).Contents (Elt Ideal)) (x3 x4 : (⟨S6144x2048, .f32⟩ : BufTy).Contents (Elt Ideal)) (s : Fin 512) (a : Fin 2) (b : Fin 16) (i : Fin 3) (q : Fin 2048) :
    val_main_v25 (F := Ideal) x0 x3 x4 (ix5 s a b i q) = Ideal.div (wexp x0 x3 x4 (rowOf s a b) i q) (wsum x0 x3 x4 (rowOf s a b) q) := by
  rw [val_main_v25_apply, val_main_v24_apply, val_main_v23_apply, v21_at]
  have e : idx_main_v23 (idx_main_v24 (ix5 s a b i q)) = ix4 s a b q := by
    funext d; match d with | ⟨0, _⟩ => rfl | ⟨1, _⟩ => rfl | ⟨2, _⟩ => rfl | ⟨3, _⟩ => rfl
  rw [e, v22_at]
  rfl

/-! ## The three weights sliced out -/

/-- The weight of the left value: gate 0 sliced out of the normalised weights and reshaped. -/
theorem v27_at (x0 : (⟨S513x2x16x2048, .f32⟩ : BufTy).Contents (Elt Ideal)) (x3 x4 : (⟨S6144x2048, .f32⟩ : BufTy).Contents (Elt Ideal)) (s : Fin 512) (a : Fin 2) (b : Fin 16) (q : Fin 2048) :
    val_main_v27 (F := Ideal) x0 x3 x4 (ix4 s a b q) = Ideal.div (wexp x0 x3 x4 (rowOf s a b) 0 q) (wsum x0 x3 x4 (rowOf s a b) q) := by
  have hs := s.isLt; have ha := a.isLt; have hb := b.isLt; have hq := q.isLt
  rw [val_main_v27_apply, val_main_v26_apply]
  have e : idx_main_v26 (idx_main_v27 (ix4 s a b q)) = ix5 s a b 0 q := by
    funext d
    apply Fin.ext
    match d with
    | ⟨0, _⟩ => show (((s.val * 2 + a.val) * 16 + b.val) * 2048 + q.val) / 65536 = s.val; omega
    | ⟨1, _⟩ => show (((s.val * 2 + a.val) * 16 + b.val) * 2048 + q.val) / 32768 % 2 = a.val; omega
    | ⟨2, _⟩ => show (((s.val * 2 + a.val) * 16 + b.val) * 2048 + q.val) / 2048 % 16 = b.val; omega
    | ⟨3, _⟩ => rfl
    | ⟨4, _⟩ => show (((s.val * 2 + a.val) * 16 + b.val) * 2048 + q.val) % 2048 = q.val; omega
  rw [e, v25_at]

/-- The weight of the right value: gate 1 sliced out of the normalised weights and reshaped. -/
theorem v30_at (x0 : (⟨S513x2x16x2048, .f32⟩ : BufTy).Contents (Elt Ideal)) (x3 x4 : (⟨S6144x2048, .f32⟩ : BufTy).Contents (Elt Ideal)) (s : Fin 512) (a : Fin 2) (b : Fin 16) (q : Fin 2048) :
    val_main_v30 (F := Ideal) x0 x3 x4 (ix4 s a b q) = Ideal.div (wexp x0 x3 x4 (rowOf s a b) 1 q) (wsum x0 x3 x4 (rowOf s a b) q) := by
  have hs := s.isLt; have ha := a.isLt; have hb := b.isLt; have hq := q.isLt
  rw [val_main_v30_apply, val_main_v29_apply]
  have e : idx_main_v29 (idx_main_v30 (ix4 s a b q)) = ix5 s a b 1 q := by
    funext d
    apply Fin.ext
    match d with
    | ⟨0, _⟩ => show (((s.val * 2 + a.val) * 16 + b.val) * 2048 + q.val) / 65536 = s.val; omega
    | ⟨1, _⟩ => show (((s.val * 2 + a.val) * 16 + b.val) * 2048 + q.val) / 32768 % 2 = a.val; omega
    | ⟨2, _⟩ => show (((s.val * 2 + a.val) * 16 + b.val) * 2048 + q.val) / 2048 % 16 = b.val; omega
    | ⟨3, _⟩ => rfl
    | ⟨4, _⟩ => show (((s.val * 2 + a.val) * 16 + b.val) * 2048 + q.val) % 2048 = q.val; omega
  rw [e, v25_at]

/-- The weight of the centre value: gate 2 sliced out of the normalised weights and reshaped. -/
theorem v34_at (x0 : (⟨S513x2x16x2048, .f32⟩ : BufTy).Contents (Elt Ideal)) (x3 x4 : (⟨S6144x2048, .f32⟩ : BufTy).Contents (Elt Ideal)) (s : Fin 512) (a : Fin 2) (b : Fin 16) (q : Fin 2048) :
    val_main_v34 (F := Ideal) x0 x3 x4 (ix4 s a b q) = Ideal.div (wexp x0 x3 x4 (rowOf s a b) 2 q) (wsum x0 x3 x4 (rowOf s a b) q) := by
  have hs := s.isLt; have ha := a.isLt; have hb := b.isLt; have hq := q.isLt
  rw [val_main_v34_apply, val_main_v33_apply]
  have e : idx_main_v33 (idx_main_v34 (ix4 s a b q)) = ix5 s a b 2 q := by
    funext d
    apply Fin.ext
    match d with
    | ⟨0, _⟩ => show (((s.val * 2 + a.val) * 16 + b.val) * 2048 + q.val) / 65536 = s.val; omega
    | ⟨1, _⟩ => show (((s.val * 2 + a.val) * 16 + b.val) * 2048 + q.val) / 32768 % 2 = a.val; omega
    | ⟨2, _⟩ => show (((s.val * 2 + a.val) * 16 + b.val) * 2048 + q.val) / 2048 % 16 = b.val; omega
    | ⟨3, _⟩ => rfl
    | ⟨4, _⟩ => show (((s.val * 2 + a.val) * 16 + b.val) * 2048 + q.val) % 2048 = q.val; omega
  rw [e, v25_at]

/-! ## The centre value -/

/-- The centre value at `(s, a, b, q)`: `1 / (1 + exp (−c))` is the logistic function of the pre-activation `c`. -/
theorem v10_at (x0 : (⟨S513x2x16x2048, .f32⟩ : BufTy).Contents (Elt Ideal)) (x1 x2 : (⟨S2048x2048, .f32⟩ : BufTy).Contents (Elt Ideal)) (s : Fin 512) (a : Fin 2) (b : Fin 16) (q : Fin 2048) :
    val_main_v10 (F := Ideal) x0 x1 x2 (ix4 s a b q) = Ideal.logistic (proj x0 x1 x2 (rowOf s a b) q) := by
  rw [val_main_v10_apply, val_main_v9_apply, val_main_cst_0_apply, val_main_v8_apply, val_main_v7_apply, val_main_cst_apply,
    val_main_v6_apply, val_main_v5_apply, v4_at]
  show Ideal.div (Ideal.ofBits .f32 0x3F800000#32) (Ideal.ofBits .f32 0x3F800000#32 + Ideal.exp (-(proj x0 x1 x2 (rowOf s a b) q))) = _
  rw [bits_one]
  rfl

/-! ## The result -/

/-- The reference's result at `(s, a, b, q)`: the three values, each weighted by its normalised weight. -/
theorem v36_at (x0 : (⟨S513x2x16x2048, .f32⟩ : BufTy).Contents (Elt Ideal)) (x1 x2 : (⟨S2048x2048, .f32⟩ : BufTy).Contents (Elt Ideal)) (x3 x4 : (⟨S6144x2048, .f32⟩ : BufTy).Contents (Elt Ideal)) (s : Fin 512) (a : Fin 2) (b : Fin 16) (q : Fin 2048) :
    val_main_v36 (F := Ideal) x0 x1 x2 x3 x4 (ix4 s a b q)
      = left x0 (rowOf s a b) q * Ideal.div (wexp x0 x3 x4 (rowOf s a b) 0 q) (wsum x0 x3 x4 (rowOf s a b) q)
        + right x0 (rowOf s a b) q * Ideal.div (wexp x0 x3 x4 (rowOf s a b) 1 q) (wsum x0 x3 x4 (rowOf s a b) q)
        + Ideal.logistic (proj x0 x1 x2 (rowOf s a b) q) * Ideal.div (wexp x0 x3 x4 (rowOf s a b) 2 q) (wsum x0 x3 x4 (rowOf s a b) q) := by
  rw [val_main_v36_apply, val_main_v32_apply, val_main_v28_apply, val_main_v31_apply, val_main_v35_apply, v0_at, v1_at, v27_at, v30_at,
    v34_at, v10_at]
  rfl

/-- THE REFERENCE SIDE: on real-valued arguments the reference program's result is the specification's array `G`.
    Index by index the reference reads as the three values weighted by their normalised weights; the arguments being
    real, the six quantities the combination takes (the two values, the centre's pre-activation, the three gate
    logits) are real, and there the normalised-weights arrangement is the specification's divide-once arrangement. -/
theorem ref_eq_G (x0 : (⟨S513x2x16x2048, .f32⟩ : BufTy).Contents (Elt Ideal)) (x1 x2 : (⟨S2048x2048, .f32⟩ : BufTy).Contents (Elt Ideal)) (x3 x4 : (⟨S6144x2048, .f32⟩ : BufTy).Contents (Elt Ideal))
    (h0 : RealValued x0) (h1 : RealValued x1) (h2 : RealValued x2) (h3 : RealValued x3) (h4 : RealValued x4) :
    val_main_v36 (F := Ideal) x0 x1 x2 x3 x4 = G x0 x1 x2 x3 x4 := by
  funext i
  obtain ⟨s, a, b, q, rfl⟩ : ∃ (s : Fin 512) (a : Fin 2) (b : Fin 16) (q : Fin 2048), i = ix4 s a b q :=
    ⟨i 0, i 1, i 2, i 3, eq_ix4 i⟩
  rw [v36_at]
  show _ = combine (left x0 (rowOf s a b) q) (right x0 (rowOf s a b) q) (proj x0 x1 x2 (rowOf s a b) q)
    (gate x0 x3 x4 (rowOf s a b) 0 q) (gate x0 x3 x4 (rowOf s a b) 1 q) (gate x0 x3 x4 (rowOf s a b) 2 q)
  obtain ⟨l, hl⟩ : ∃ l : ℝ, left x0 (rowOf s a b) q = (l : EReal) := h0 _
  obtain ⟨r, hr⟩ : ∃ r : ℝ, right x0 (rowOf s a b) q = (r : EReal) := h0 _
  obtain ⟨c, hc⟩ := proj_real x0 x1 x2 h0 h1 h2 (rowOf s a b) q
  obtain ⟨g0, hg0⟩ := gate_real x0 x3 x4 h0 h3 h4 (rowOf s a b) 0 q
  obtain ⟨g1, hg1⟩ := gate_real x0 x3 x4 h0 h3 h4 (rowOf s a b) 1 q
  obtain ⟨g2, hg2⟩ := gate_real x0 x3 x4 h0 h3 h4 (rowOf s a b) 2 q
  unfold wsum wexp gmax
  rw [hl, hr, hc, hg0, hg1, hg2]
  exact (combine_real l r c g0 g1 g2).symm

end Cert.RefSide

end
-- ==== Proof.HostSide.lean ====
/-
  The host operations around the kernel region, read at an index.

  Before the region the program slices the sequence into its left nodes (nodes 0..511) and its right nodes (nodes 1..512),
  flattens (node, batch) to rows, and transposes each of the four weight matrices; a change of float format is the identity on
  extended reals. After the region it unflattens the rows back to (node, batch). Each lemma below reads one of these arrays at
  an index given by its coordinates, as an entry of an argument array.
-/
import proofs.«145906_j5626407157789_2_alg».proof.Proof.Gen.KernelIdeal.Frame
import proofs.«145906_j5626407157789_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-! ## The two row arrays: a node slice, flattened -/

/-- Row `r` of the flattened [512, 2, 16, 2048] array is its entry at node `r / 32`, batch position `(r / 16 % 2, r % 16)`. -/
theorem flatten_apply (y : S512x2x16x2048.Idx → EReal) (r : Fin 16384) (h : Fin 2048) :
    shapeCast S16384x2048 y shapeCasts_S512x2x16x2048_S16384x2048 (ix2 r h)
      = y (ix4 (⟨r.val / 32, by have := r.isLt; omega⟩ : Fin 512) (⟨r.val / 16 % 2, Nat.mod_lt _ (by decide)⟩ : Fin 2)
          (⟨r.val % 16, Nat.mod_lt _ (by decide)⟩ : Fin 16) h) :=
  shapeCast_apply y shapeCasts_S512x2x16x2048_S16384x2048 _ _ (by
    rw [Shape.rowMajor_val_four, Shape.rowMajor_val_two]
    have hr := r.isLt
    show ((r.val / 32 * 2 + r.val / 16 % 2) * 16 + r.val % 16) * 2048 + h.val = r.val * 2048 + h.val
    omega)

/-- The left rows: nodes 0..511 of the sequence, flattened. -/
theorem V_left (r : Fin 16384) (h : Fin 2048) :
    (V m c main_v2 : S16384x2048.Idx → EReal) (ix2 r h)
      = Cert.GateSpec.left (m ((c.tc : Thread nD τ).loc main_arg0)) r h := by
  have e : (V m c main_v2 : S16384x2048.Idx → EReal)
      = shapeCast S16384x2048
          (extractStridedSlice S512x2x16x2048 ![0, 0, 0, 0] (m ((c.tc : Thread nD τ).loc main_arg0))
            slices_S513x2x16x2048_S512x2x16x2048_0_0_0_0) shapeCasts_S512x2x16x2048_S16384x2048 := by
    show StableHlo.after hostOps0 (fun b => m (c, b)) (Proc.devRef .tc main_v2) = _
    after_results
    rfl
  refine (congrFun e (ix2 r h)).trans ?_
  refine (flatten_apply _ r h).trans ?_
  unfold Cert.GateSpec.left
  exact extractStridedSlice_apply (s := S513x2x16x2048) (t := S512x2x16x2048) ![0, 0, 0, 0]
    (m ((c.tc : Thread nD τ).loc main_arg0)) slices_S513x2x16x2048_S512x2x16x2048_0_0_0_0
    (ix4 (⟨r.val / 32, by have := r.isLt; omega⟩ : Fin 512) (⟨r.val / 16 % 2, Nat.mod_lt _ (by decide)⟩ : Fin 2)
      (⟨r.val % 16, Nat.mod_lt _ (by decide)⟩ : Fin 16) h)
    (ix4 (⟨r.val / 32, by have := r.isLt; omega⟩ : Fin 513) (⟨r.val / 16 % 2, Nat.mod_lt _ (by decide)⟩ : Fin 2)
      (⟨r.val % 16, Nat.mod_lt _ (by decide)⟩ : Fin 16) h) (fun a => match a with
    | ⟨0, _⟩ => by show r.val / 32 = 0 + r.val / 32; omega
    | ⟨1, _⟩ => by show r.val / 16 % 2 = 0 + r.val / 16 % 2; omega
    | ⟨2, _⟩ => by show r.val % 16 = 0 + r.val % 16; omega
    | ⟨3, _⟩ => by show h.val = 0 + h.val; omega)

/-- The right rows: nodes 1..512 of the sequence, flattened. -/
theorem V_right (r : Fin 16384) (h : Fin 2048) :
    (V m c main_v5 : S16384x2048.Idx → EReal) (ix2 r h)
      = Cert.GateSpec.right (m ((c.tc : Thread nD τ).loc main_arg0)) r h := by
  have e : (V m c main_v5 : S16384x2048.Idx → EReal)
      = shapeCast S16384x2048
          (extractStridedSlice S512x2x16x2048 ![1, 0, 0, 0] (m ((c.tc : Thread nD τ).loc main_arg0))
            slices_S513x2x16x2048_S512x2x16x2048_1_0_0_0) shapeCasts_S512x2x16x2048_S16384x2048 := by
    show StableHlo.after hostOps0 (fun b => m (c, b)) (Proc.devRef .tc main_v5) = _
    after_results
    rfl
  refine (congrFun e (ix2 r h)).trans ?_
  refine (flatten_apply _ r h).trans ?_
  unfold Cert.GateSpec.right
  exact extractStridedSlice_apply (s := S513x2x16x2048) (t := S512x2x16x2048) ![1, 0, 0, 0]
    (m ((c.tc : Thread nD τ).loc main_arg0)) slices_S513x2x16x2048_S512x2x16x2048_1_0_0_0
    (ix4 (⟨r.val / 32, by have := r.isLt; omega⟩ : Fin 512) (⟨r.val / 16 % 2, Nat.mod_lt _ (by decide)⟩ : Fin 2)
      (⟨r.val % 16, Nat.mod_lt _ (by decide)⟩ : Fin 16) h)
    (ix4 (⟨r.val / 32 + 1, by have := r.isLt; omega⟩ : Fin 513) (⟨r.val / 16 % 2, Nat.mod_lt _ (by decide)⟩ : Fin 2)
      (⟨r.val % 16, Nat.mod_lt _ (by decide)⟩ : Fin 16) h) (fun a => match a with
    | ⟨0, _⟩ => by show r.val / 32 + 1 = 1 + r.val / 32; omega
    | ⟨1, _⟩ => by show r.val / 16 % 2 = 0 + r.val / 16 % 2; omega
    | ⟨2, _⟩ => by show r.val % 16 = 0 + r.val % 16; omega
    | ⟨3, _⟩ => by show h.val = 0 + h.val; omega)

/-! ## The four weight matrices: transposed -/

/-- The left centre weights, transposed: entry `(h, q)` is `WL[q, h]`. -/
theorem V_wl (h q : Fin 2048) :
    (V m c main_v7 : S2048x2048.Idx → EReal) (ix2 h q) = m ((c.tc : Thread nD τ).loc main_arg1) (ix2 q h) := by
  have e : (V m c main_v7 : S2048x2048.Idx → EReal)
      = transpose S2048x2048 [1, 0] (m ((c.tc : Thread nD τ).loc main_arg1)) transposes_S2048x2048_S2048x2048_1_0 := by
    show StableHlo.after hostOps0 (fun b => m (c, b)) (Proc.devRef .tc main_v7) = _
    after_results
    rfl
  refine (congrFun e (ix2 h q)).trans ?_
  exact transpose_ix2_apply _ transposes_S2048x2048_S2048x2048_1_0 h q

/-- The right centre weights, transposed: entry `(h, q)` is `WR[q, h]`. -/
theorem V_wr (h q : Fin 2048) :
    (V m c main_v9 : S2048x2048.Idx → EReal) (ix2 h q) = m ((c.tc : Thread nD τ).loc main_arg2) (ix2 q h) := by
  have e : (V m c main_v9 : S2048x2048.Idx → EReal)
      = transpose S2048x2048 [1, 0] (m ((c.tc : Thread nD τ).loc main_arg2)) transposes_S2048x2048_S2048x2048_1_0 := by
    show StableHlo.after hostOps0 (fun b => m (c, b)) (Proc.devRef .tc main_v9) = _
    after_results
    rfl
  refine (congrFun e (ix2 h q)).trans ?_
  exact transpose_ix2_apply _ transposes_S2048x2048_S2048x2048_1_0 h q

/-- The left gate weights, transposed: entry `(h, k)` is `GL[k, h]`. -/
theorem V_gl (h : Fin 2048) (k : Fin 6144) :
    (V m c main_v11 : S2048x6144.Idx → EReal) (ix2 h k) = m ((c.tc : Thread nD τ).loc main_arg3) (ix2 k h) := by
  have e : (V m c main_v11 : S2048x6144.Idx → EReal)
      = transpose S2048x6144 [1, 0] (m ((c.tc : Thread nD τ).loc main_arg3)) transposes_S6144x2048_S2048x6144_1_0 := by
    show StableHlo.after hostOps0 (fun b => m (c, b)) (Proc.devRef .tc main_v11) = _
    after_results
    rfl
  refine (congrFun e (ix2 h k)).trans ?_
  exact transpose_ix2_apply _ transposes_S6144x2048_S2048x6144_1_0 h k

/-- The right gate weights, transposed: entry `(h, k)` is `GR[k, h]`. -/
theorem V_gr (h : Fin 2048) (k : Fin 6144) :
    (V m c main_v13 : S2048x6144.Idx → EReal) (ix2 h k) = m ((c.tc : Thread nD τ).loc main_arg4) (ix2 k h) := by
  have e : (V m c main_v13 : S2048x6144.Idx → EReal)
      = transpose S2048x6144 [1, 0] (m ((c.tc : Thread nD τ).loc main_arg4)) transposes_S6144x2048_S2048x6144_1_0 := by
    show StableHlo.after hostOps0 (fun b => m (c, b)) (Proc.devRef .tc main_v13) = _
    after_results
    rfl
  refine (congrFun e (ix2 h k)).trans ?_
  exact transpose_ix2_apply _ transposes_S6144x2048_S2048x6144_1_0 h k

/-! ## After the region: the rows unflattened -/

/-- Entry `(s, a, b, q)` of the unflattened result is row `32·s + 16·a + b`, column `q`, of the flat one. -/
theorem unflatten_apply (y : S16384x2048.Idx → EReal) (i : S512x2x16x2048.Idx) :
    shapeCast S512x2x16x2048 y shapeCasts_S16384x2048_S512x2x16x2048 i
      = y (ix2 (Cert.GateSpec.rowOf (i 0) (i 1) (i 2)) (i 3)) :=
  shapeCast_apply y shapeCasts_S16384x2048_S512x2x16x2048 i _ (by
    rw [Shape.rowMajor_val_two, Shape.rowMajor_val_four]
    have h0 : (i 0).val < 512 := (i 0).isLt
    have h1 : (i 1).val < 2 := (i 1).isLt
    have h2 : (i 2).val < 16 := (i 2).isLt
    show (32 * (i 0).val + 16 * (i 1).val + (i 2).val) * 2048 + (i 3).val
      = (((i 0).val * 2 + (i 1).val) * 16 + (i 2).val) * 2048 + (i 3).val
    omega)

end Cert.KernelIdeal.HostSide

end
-- ==== Proof.KernelArray.lean ====
/-
  From the output blocks to the program's result.

  The grid has 256 points; the output block of 512 rows is written back at the points t ≡ 7 (mod 8), the last chunk of each
  row block, and point t's block is rows 512·(t / 8) .. 512·(t / 8) + 511 of the 16384-row result of the region. Given, as a
  hypothesis, what each such point leaves in its block — the entry of one array R at the block's rows —, the region's result
  is R, because the 32 blocks tile the rows; the one operation after the region unflattens the rows to (node, batch).
-/
import proofs.«145906_j5626407157789_2_alg».proof.Proof.Gen.KernelIdeal.Frame
import proofs.«145906_j5626407157789_2_alg».proof.Proof.HostSide
import proofs.«145906_j5626407157789_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KernelArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output window's block index, decided over the grid: point `t` is row block `t / 8`, the one column block. -/
theorem idx6 : ∀ t : Fin cfg0.N, win0_6.index t (0 : Fin 2) = t.val / 8 ∧ win0_6.index t (1 : Fin 2) = 0 :=
  (by decide +kernel : ∀ t : Fin grid0.N, _)

/-- WHAT A LAST-CHUNK POINT WRITES BACK is its block of `R`: rows `512·(t / 8) ..` of it. -/
theorem flushed_eq (R : Dev nD → S16384x2048.Idx → EReal)
    (hout : ∀ (c : Dev nD) (t : Fin cfg0.N), t.val % 8 = 7 → ∀ (p : Fin 512) (q : Fin 2048) (r : Fin 16384),
      r.val = 512 * (t.val / 8) + p.val → (outsAt0 m c t.val t.isLt).1 (ix2 p q) = R c (ix2 r q))
    (c : Dev nD) (t : Fin cfg0.N) (hf : (cfg0.win 6).flush t = true) :
    (dats m 0 c).flushed 6 t = ((cfg0.win 6).blk t).view.read (Elt Ideal) (R c) := by
  show (cfg0.win 6).cut (grid0.coords t) ((dats m 0 c).after 6 t) = _
  rw [after0_6]
  refine funext fun (j : S512x2048.Idx) => ?_
  obtain ⟨p, q, rfl⟩ : ∃ (p : Fin 512) (q : Fin 2048), j = ix2 p q := ⟨j 0, j 1, eq_ix2 j⟩
  show (outsAt0 m c t.val t.isLt).1 (ix2 p q) = R c (((cfg0.win 6).blk t).view.emb (ix2 p q))
  have h7 : t.val % 8 = 7 := (flush0_6 t).mp hf
  have ht : t.val < 256 := lt_of_lt_of_eq t.isLt N_0
  obtain ⟨e0, e1⟩ := idx6 t
  refine (hout c t h7 p q ⟨512 * (t.val / 8) + p.val, by have := p.isLt; omega⟩ rfl).trans ?_
  refine congrArg (R c) (funext fun a => Fin.ext ?_)
  match a with
  | ⟨0, _⟩ => show 512 * (t.val / 8) + p.val = win0_6.index t (0 : Fin 2) * 512 + 1 * p.val; rw [e0]; omega
  | ⟨1, _⟩ => show q.val = win0_6.index t (1 : Fin 2) * 2048 + 1 * q.val; rw [e1]; omega

/-- THE BLOCKS TILE THE ROWS: row `i` lies in the block of the last-chunk point `8·(i / 512) + 7`. -/
theorem cover (i : S16384x2048.Idx) :
    ∃ t : Fin cfg0.N, (cfg0.win 6).flush t = true ∧ i ∈ ((cfg0.win 6).blk t).view.set := by
  have hi0 : (i 0).val < 16384 := (i 0).isLt
  have hi1 : (i 1).val < 2048 := (i 1).isLt
  obtain ⟨t, tv⟩ : ∃ t : Fin cfg0.N, t.val = 8 * ((i 0).val / 512) + 7 :=
    ⟨⟨8 * ((i 0).val / 512) + 7, lt_of_lt_of_eq (by omega : 8 * ((i 0).val / 512) + 7 < 256) N_0.symm⟩, rfl⟩
  obtain ⟨e0, e1⟩ := idx6 t
  refine ⟨t, (flush0_6 t).mpr (by rw [tv]; omega), ?_⟩
  show i ∈ ((View.whole main_v14).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0, tv]; omega
  | ⟨1, _⟩ =>
    show win0_6.index t (1 : Fin 2) * 2048 ≤ (i 1).val ∧ (i 1).val < win0_6.index t (1 : Fin 2) * 2048 + 2048
    rw [e1]; omega

/-- So the region's result array ends holding `R`. -/
theorem final (R : Dev nD → S16384x2048.Idx → EReal)
    (hout : ∀ (c : Dev nD) (t : Fin cfg0.N), t.val % 8 = 7 → ∀ (p : Fin 512) (q : Fin 2048) (r : Fin 16384),
      r.val = 512 * (t.val / 8) + p.val → (outsAt0 m c t.val t.isLt).1 (ix2 p q) = R c (ix2 r q))
    (c : Dev nD) : (dats m 0 c).arrAt 6 cfg0.N = R c :=
  (dats m 0 c).arrAt_eq_of_cover 6 (R c) (fun t hf => flushed_eq m R hout c t hf) cover

/-- The one operation after the region: the program's result is the region's result array, unflattened. -/
theorem tail_value (c : Dev nD) :
    Pipeline.afterTail₀ cfgs (dats m) 0 (V0 m) [hostOps1] c main_v15
      = shapeCast S512x2x16x2048 ((dats m 0 c).arrAt 6 cfg0.N) shapeCasts_S16384x2048_S512x2x16x2048 := by
  unfold Pipeline.afterTail₀
  show StableHlo.after hostOps1 _ (Proc.devRef .tc main_v15) = _
  after_results
  rw [Pipeline.withArrays_arr spec0 launch0.win.arr_inj c _ _ 6]
  generalize (dats m 0 c).arrAt 6 (cfgs 0).N = y
  rfl

/-- THE RUN: every execution of the program terminates with the result array at `R` read at row `32·s + 16·a + b`,
    and the five arguments as launched. -/
theorem run_of_blocks (R : Dev nD → S16384x2048.Idx → EReal)
    (hout : ∀ (c : Dev nD) (t : Fin cfg0.N), t.val % 8 = 7 → ∀ (p : Fin 512) (q : Fin 2048) (r : Fin 16384),
      r.val = 512 * (t.val / 8) + p.val → (outsAt0 m c t.val t.isLt).1 (ix2 p q) = R c (ix2 r q)) :
    θ_run defs (onTc (τ := τ) (main (F := Ideal))) ⟨m, fun _ => 0, ρ⟩ (fun r => ∀ c : Dev nD,
      r.2.mem ((c.tc : Thread nD τ).loc main_v15) = (fun i => R c (ix2 (Cert.GateSpec.rowOf (i 0) (i 1) (i 2)) (i 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans
        ((tail_value m c).trans (by
          rw [final m R hout c]
          funext i
          exact Cert.KernelIdeal.HostSide.unflatten_apply (R c) i)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelArray

end
-- ==== Proof.Pieces.lean ====
/-
  What one run of the kernel body leaves in its two accumulators and in its output block, in each of the three
  cases of the grid's inner coordinate k.

  The body adds, to the centre accumulator [512, 2048] and to the gate accumulator [512, 6144], the product of the
  k-th 256-column chunk of the left and right row blocks with the k-th 256-row tile of the weights; at k = 0 both
  accumulators are zeroed first; at k = 7 the epilogue combines the finished accumulators — the three 2048-column
  slices of the gate accumulator, read back at column offsets 0, 2048, 4096 — with the whole left and right row
  blocks into the output block. Each store covers its buffer whole, so what a buffer ends holding is the last store's
  value; a value read back from a buffer stored earlier in the same run is that store's value.
-/
import proofs.«145906_j5626407157789_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- After ONE store covering a whole buffer, a load through any rectangle reads the stored value through that
    rectangle. -/
theorem readCov_whole_store {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- The k-th chunk of a row block: its 256 columns from column 256·k on, k the grid's inner coordinate. -/
abbrev chunk (i : grid0.Coords) (x : Vec F S512x2048 .bf16) : Vec F S512x256 .bf16 :=
  View.ld x (Rect.unit (s := S512x2048) (k0_off1 i) S512x256.size (k0_off1_inb i))

/-- The i-th 2048-column slice of a gate accumulator [512, 6144], i = 0, 1, 2. -/
abbrev slice0 (g : Vec F S512x6144 .f32) : Vec F S512x2048 .f32 :=
  View.ld g (Rect.unit (s := S512x6144) ![0, 0] S512x2048.size inb_S512x6144_S512x2048_0_0)
abbrev slice1 (g : Vec F S512x6144 .f32) : Vec F S512x2048 .f32 :=
  View.ld g (Rect.unit (s := S512x6144) ![0, 2048] S512x2048.size inb_S512x6144_S512x2048_0_2048)
abbrev slice2 (g : Vec F S512x6144 .f32) : Vec F S512x2048 .f32 :=
  View.ld g (Rect.unit (s := S512x6144) ![0, 4096] S512x2048.size inb_S512x6144_S512x2048_0_4096)

/-! ## k = 0: both accumulators zeroed, then the first chunk's products added -/

/-- At k = 0 the centre accumulator ends at zero plus the first chunk's two products. -/
theorem centre_first (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : cond0_0 i) (hc1 : ¬cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) :
    sout0_A_0 c i arg2 harg2 arg3 harg3 arg4 harg4 arg5 harg5 arg6 harg6 arg7 harg7 arg8 harg8 arg9 harg9 arg10 harg10 hc0 hc1 x0 x1 x2 x3 x4 x5 = k0_pay7 (chunk i x0) (chunk i x1) x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2048) hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-- At k = 0 the gate accumulator ends at zero plus the first chunk's two products. -/
theorem gate_first (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : cond0_0 i) (hc1 : ¬cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) :
    sout0_A_1 c i arg2 harg2 arg3 harg3 arg4 harg4 arg5 harg5 arg6 harg6 arg7 harg7 arg8 harg8 arg9 harg9 arg10 harg10 hc0 hc1 x0 x1 x2 x3 x4 x5 = k0_pay1 (k0_pay8 (chunk i x0) (chunk i x1) x4 x5 k0_pay4) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x6144) hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-! ## 0 < k < 7: the chunk's products added to what the point before left -/

/-- For 0 < k < 7 the centre accumulator ends at its previous contents plus the chunk's two products. -/
theorem centre_mid (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : ¬cond0_0 i) (hc1 : ¬cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) (xs0 : Vec F S512x2048 .f32) (xs1 : Vec F S512x6144 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay7 (chunk i x0) (chunk i x1) x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-- For 0 < k < 7 the gate accumulator ends at its previous contents plus the chunk's two products. -/
theorem gate_mid (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : ¬cond0_0 i) (hc1 : ¬cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) (xs0 : Vec F S512x2048 .f32) (xs1 : Vec F S512x6144 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay1 (k0_pay8 (chunk i x0) (chunk i x1) x4 x5 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-! ## k = 7: the last chunk added, then the epilogue -/

/-- At k = 7 the centre accumulator ends at its previous contents plus the last chunk's two products. -/
theorem centre_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : ¬cond0_0 i) (hc1 : cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) (xs0 : Vec F S512x2048 .f32) (xs1 : Vec F S512x6144 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay7 (chunk i x0) (chunk i x1) x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-- At k = 7 the gate accumulator ends at its previous contents plus the last chunk's two products. -/
theorem gate_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : ¬cond0_0 i) (hc1 : cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) (xs0 : Vec F S512x2048 .f32) (xs1 : Vec F S512x6144 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay1 (k0_pay8 (chunk i x0) (chunk i x1) x4 x5 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

/-- At k = 7 the output block is the epilogue of the two finished accumulators — the gate accumulator read back in its three 2048-column slices — and the whole left and right row blocks. -/
theorem out_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x6144 .bf16) (harg6 : arg6.IsWhole) (arg7 : Memref sig .tc .vmem S256x6144 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x6144 .f32) (harg10 : arg10.IsWhole) (hc0 : ¬cond0_0 i) (hc1 : cond0_1 i)
    (x0 : Vec F S512x2048 .bf16) (x1 : Vec F S512x2048 .bf16) (x2 : Vec F S256x2048 .bf16) (x3 : Vec F S256x2048 .bf16) (x4 : Vec F S256x6144 .bf16) (x5 : Vec F S256x6144 .bf16) (xs0 : Vec F S512x2048 .f32) (xs1 : Vec F S512x6144 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay2 (k0_pay7 (chunk i x0) (chunk i x1) x2 x3 xs0) (slice0 (k0_pay1 (k0_pay8 (chunk i x0) (chunk i x1) x4 x5 xs1))) (slice1 (k0_pay1 (k0_pay8 (chunk i x0) (chunk i x1) x4 x5 xs1))) (slice2 (k0_pay1 (k0_pay8 (chunk i x0) (chunk i x1) x4 x5 xs1))) x0 x1 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [readCov_whole_store (S := S512x2048) _ hz, readCov_whole_store (S := S512x6144) _ hz, View.readAt_eq_ld, harg2.read_unread, harg3.read_unread, harg4.read_unread, harg5.read_unread, harg6.read_unread, harg7.read_unread, harg9.read_unread, harg10.read_unread, View.ld_unit_zero (S := S512x2048) hz, View.ld_unit_zero (S := S256x2048) hz, View.ld_unit_zero (S := S256x6144) hz, View.ld_unit_zero (S := S512x6144) hz]
  rfl

end Cert.KernelIdeal.Pieces

end
-- ==== Proof.Steps.lean ====
/-
  The accumulation across the grid, one point at a time.

  The grid has 32 × 8 points, row block b outer and chunk k inner; point t is (b, k) = (t / 8, t % 8). After point t
  the centre accumulator holds: at k = 0, zero plus the products of chunk 0; at k > 0, what point t − 1 left plus
  the products of chunk k. The gate accumulator likewise. At k = 7 the output block is the epilogue of the two
  accumulators as point t itself leaves them. These are the three cases of the body's run, joined: which case a
  point falls in is decided by t % 8 alone.
-/
import proofs.«145906_j5626407157789_2_alg».proof.Proof.Pieces

set_option maxRecDepth 16384
set_option backward.isDefEq.respectTransparency.types false

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- At a first chunk (k = 0) the centre accumulator ends at zero plus the chunk's products. -/
theorem centre_zero (c : Dev nD) (t : Fin cfg0.N) (h0 : t.val % 8 = 0) :
    (outsAt0 m c t.val t.isLt).2.1 = k0_pay7 (chunk (grid0.coords t) (iblk m c 0 t)) (chunk (grid0.coords t) (iblk m c 1 t)) (iblk m c 2 t) (iblk m c 3 t) k0_pay3 := by
  have h1 : ¬t.val % 8 = 7 := by omega
  rw [outsAt0_A m c t h0 h1]
  dsimp only
  exact centre_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a first chunk (k = 0) the gate accumulator ends at zero plus the chunk's products. -/
theorem gate_zero (c : Dev nD) (t : Fin cfg0.N) (h0 : t.val % 8 = 0) :
    (outsAt0 m c t.val t.isLt).2.2 = k0_pay1 (k0_pay8 (chunk (grid0.coords t) (iblk m c 0 t)) (chunk (grid0.coords t) (iblk m c 1 t)) (iblk m c 4 t) (iblk m c 5 t) k0_pay4) := by
  have h1 : ¬t.val % 8 = 7 := by omega
  rw [outsAt0_A m c t h0 h1]
  dsimp only
  exact gate_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a later chunk (k > 0) the centre accumulator ends at what the point before left plus the chunk's products. -/
theorem centre_succ (c : Dev nD) (t : Fin cfg0.N) (h0 : ¬t.val % 8 = 0) :
    (outsAt0 m c t.val t.isLt).2.1 = k0_pay7 (chunk (grid0.coords t) (iblk m c 0 t)) (chunk (grid0.coords t) (iblk m c 1 t)) (iblk m c 2 t) (iblk m c 3 t) (outsAt0 m c (t.val - 1) (Nat.lt_of_le_of_lt (Nat.sub_le _ _) t.isLt)).2.1 := by
  by_cases h1 : t.val % 8 = 7
  · rw [outsAt0_C m c t h0 h1]
    dsimp only
    exact centre_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact centre_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At a later chunk (k > 0) the gate accumulator ends at what the point before left plus the chunk's products. -/
theorem gate_succ (c : Dev nD) (t : Fin cfg0.N) (h0 : ¬t.val % 8 = 0) :
    (outsAt0 m c t.val t.isLt).2.2 = k0_pay1 (k0_pay8 (chunk (grid0.coords t) (iblk m c 0 t)) (chunk (grid0.coords t) (iblk m c 1 t)) (iblk m c 4 t) (iblk m c 5 t) (outsAt0 m c (t.val - 1) (Nat.lt_of_le_of_lt (Nat.sub_le _ _) t.isLt)).2.2) := by
  by_cases h1 : t.val % 8 = 7
  · rw [outsAt0_C m c t h0 h1]
    dsimp only
    exact gate_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact gate_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At a last chunk (k = 7) the output block is the epilogue of the accumulators as this point leaves them and of
    the whole left and right row blocks. -/
theorem out_at_last (c : Dev nD) (t : Fin cfg0.N) (h1 : t.val % 8 = 7) :
    (outsAt0 m c t.val t.isLt).1
      = k0_pay2 (outsAt0 m c t.val t.isLt).2.1 (slice0 (outsAt0 m c t.val t.isLt).2.2)
          (slice1 (outsAt0 m c t.val t.isLt).2.2) (slice2 (outsAt0 m c t.val t.isLt).2.2) (iblk m c 0 t) (iblk m c 1 t) := by
  have h0 : ¬t.val % 8 = 0 := by omega
  rw [centre_succ m c t h0, gate_succ m c t h0, outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.Payloads.lean ====
/-
  The arithmetic of the kernel body, read at one index, on the extended reals.

  The body keeps two accumulators: the centre, 512 x 2048, and the three gate logits side by side, 512 x 6144. Both
  start as the zero array. Each step adds, at row `p` and column `q`, the two products over the step's 256 hidden
  entries: `sum_k left[p,k] * W[k,q] + sum_k right[p,k] * W'[k,q]`. After the last step the result at `(p, q)` is the
  softmax-weighted combination of the left entry, the right entry and the logistic of the centre, the weights those of
  the three gate logits: the function `Cert.GateSpec.combine` of the six numbers read at `(p, q)`.
-/
import proofs.«145906_j5626407157789_2_alg».proof.Proof.Gen.KernelIdeal.Skeleton
import proofs.«145906_j5626407157789_2_alg».proof.Proof.Spec
import proofs.«145906_j5626407157789_2_alg».proof.Proof.LibContractSum
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx

/-! ## The zero arrays and the identity cast -/

/-- The centre accumulator starts as the zero array. -/
theorem pay3_apply (p : Fin 512) (q : Fin 2048) : (k0_pay3 (F := Ideal)) (ix2 p q) = 0 := by
  unfold k0_pay3
  simp only [shapeCast_self]
  exact Ideal.ofBits_zero_f32

/-- The gate accumulator starts as the zero array. -/
theorem pay4_apply (p : Fin 512) (w : Fin 6144) : (k0_pay4 (F := Ideal)) (ix2 p w) = 0 := by
  unfold k0_pay4
  simp only [shapeCast_self]
  exact Ideal.ofBits_zero_f32

/-- A cast of an array to its own shape is the array. -/
theorem pay1_eq (v : FVec Ideal S512x6144 .f32) : k0_pay1 v = v := by
  unfold k0_pay1
  exact shapeCast_self _ _

/-! ## A product of a 512 x 256 block with a 256 x N block, read at an index

  The dimension record contracts axis 1 of the left operand with axis 0 of the right one: entry `(p, q)` of the
  product is the row `p` of the left operand times the column `q` of the right one. -/

/-! ### 2048 columns (the centre) -/

theorem lhsC_0 (j : S512x2048.Idx) (c : dot_S512x256_S256x2048_S512x2048_1_0_0_1_n_n.contr.Idx) :
    (dot_S512x256_S256x2048_S512x2048_1_0_0_1_n_n.lhsIdx j c 0).val = (j 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem lhsC_1 (j : S512x2048.Idx) (c : dot_S512x256_S256x2048_S512x2048_1_0_0_1_n_n.contr.Idx) :
    (dot_S512x256_S256x2048_S512x2048_1_0_0_1_n_n.lhsIdx j c 1).val = (c ⟨0, by decide⟩).val :=
  dot_S512x256_S256x2048_S512x2048_1_0_0_1_n_n.lhsIdx_val_of_single rfl j c
theorem rhsC_0 (j : S512x2048.Idx) (c : dot_S512x256_S256x2048_S512x2048_1_0_0_1_n_n.contr.Idx) :
    (dot_S512x256_S256x2048_S512x2048_1_0_0_1_n_n.rhsIdx j c 0).val = (c ⟨0, by decide⟩).val :=
  dot_S512x256_S256x2048_S512x2048_1_0_0_1_n_n.rhsIdx_val_of_single rfl j c
theorem rhsC_1 (j : S512x2048.Idx) (c : dot_S512x256_S256x2048_S512x2048_1_0_0_1_n_n.contr.Idx) :
    (dot_S512x256_S256x2048_S512x2048_1_0_0_1_n_n.rhsIdx j c 1).val = (j 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- Into the zero array, 2048 columns: `sum_k lhs[p,k] * rhs[k,q]`. -/
theorem matmul2048_apply (lhs : FVec Ideal S512x256 .bf16) (rhs : FVec Ideal S256x2048 .bf16) (p : Fin 512) (q : Fin 2048) :
    matmul (F := Ideal) dot_S512x256_S256x2048_S512x2048_1_0_0_1_n_n none lhs rhs
        (constant (F := Ideal) S512x2048 .f32 0x00000000#32) (ix2 p q)
      = ∑ k : Fin 256, lhs (ix2 p k) * rhs (ix2 k q) := by
  refine Cert.LibContractSum.matmul_zero_sum dot_S512x256_S256x2048_S512x2048_1_0_0_1_n_n none 256 rfl rfl lhs rhs (ix2 p q)
    (fun k => ix2 p k) (fun k => ix2 k q) (fun k => ?_) (fun k => ?_)
  · have hk := contrEquiv1_symm_val dot_S512x256_S256x2048_S512x2048_1_0_0_1_n_n 256 rfl rfl k
    exact funext fun a => Fin.ext (by
      match a with
      | ⟨0, _⟩ => exact lhsC_0 _ _
      | ⟨1, _⟩ => exact (lhsC_1 _ _).trans hk)
  · have hk := contrEquiv1_symm_val dot_S512x256_S256x2048_S512x2048_1_0_0_1_n_n 256 rfl rfl k
    exact funext fun a => Fin.ext (by
      match a with
      | ⟨0, _⟩ => exact (rhsC_0 _ _).trans hk
      | ⟨1, _⟩ => exact rhsC_1 _ _)

/-! ### 6144 columns (the three gates side by side) -/

theorem lhsG_0 (j : S512x6144.Idx) (c : dot_S512x256_S256x6144_S512x6144_1_0_0_1_n_n.contr.Idx) :
    (dot_S512x256_S256x6144_S512x6144_1_0_0_1_n_n.lhsIdx j c 0).val = (j 0).val := by
  unfold DotDims.lhsIdx
  rw [dif_neg (show ¬(0 : Fin S512x256.rank) ∈ dot_S512x256_S256x6144_S512x6144_1_0_0_1_n_n.lhsBatch by decide),
    dif_pos (show (0 : Fin S512x256.rank) ∈ dot_S512x256_S256x6144_S512x6144_1_0_0_1_n_n.lhsNonContracting by decide)]
  rfl
theorem lhsG_1 (j : S512x6144.Idx) (c : dot_S512x256_S256x6144_S512x6144_1_0_0_1_n_n.contr.Idx) :
    (dot_S512x256_S256x6144_S512x6144_1_0_0_1_n_n.lhsIdx j c 1).val = (c ⟨0, by decide⟩).val :=
  dot_S512x256_S256x6144_S512x6144_1_0_0_1_n_n.lhsIdx_val_of_single rfl j c
theorem rhsG_0 (j : S512x6144.Idx) (c : dot_S512x256_S256x6144_S512x6144_1_0_0_1_n_n.contr.Idx) :
    (dot_S512x256_S256x6144_S512x6144_1_0_0_1_n_n.rhsIdx j c 0).val = (c ⟨0, by decide⟩).val :=
  dot_S512x256_S256x6144_S512x6144_1_0_0_1_n_n.rhsIdx_val_of_single rfl j c
theorem rhsG_1 (j : S512x6144.Idx) (c : dot_S512x256_S256x6144_S512x6144_1_0_0_1_n_n.contr.Idx) :
    (dot_S512x256_S256x6144_S512x6144_1_0_0_1_n_n.rhsIdx j c 1).val = (j 1).val := by
  unfold DotDims.rhsIdx
  rw [dif_neg (show ¬(1 : Fin S256x6144.rank) ∈ dot_S512x256_S256x6144_S512x6144_1_0_0_1_n_n.rhsBatch by decide),
    dif_pos (show (1 : Fin S256x6144.rank) ∈ dot_S512x256_S256x6144_S512x6144_1_0_0_1_n_n.rhsNonContracting by decide)]
  rfl

/-- Into the zero array, 6144 columns: `sum_k lhs[p,k] * rhs[k,w]`. -/
theorem matmul6144_apply (lhs : FVec Ideal S512x256 .bf16) (rhs : FVec Ideal S256x6144 .bf16) (p : Fin 512) (w : Fin 6144) :
    matmul (F := Ideal) dot_S512x256_S256x6144_S512x6144_1_0_0_1_n_n none lhs rhs
        (constant (F := Ideal) S512x6144 .f32 0x00000000#32) (ix2 p w)
      = ∑ k : Fin 256, lhs (ix2 p k) * rhs (ix2 k w) := by
  refine Cert.LibContractSum.matmul_zero_sum dot_S512x256_S256x6144_S512x6144_1_0_0_1_n_n none 256 rfl rfl lhs rhs (ix2 p w)
    (fun k => ix2 p k) (fun k => ix2 k w) (fun k => ?_) (fun k => ?_)
  · have hk := contrEquiv1_symm_val dot_S512x256_S256x6144_S512x6144_1_0_0_1_n_n 256 rfl rfl k
    exact funext fun a => Fin.ext (by
      match a with
      | ⟨0, _⟩ => exact lhsG_0 _ _
      | ⟨1, _⟩ => exact (lhsG_1 _ _).trans hk)
  · have hk := contrEquiv1_symm_val dot_S512x256_S256x6144_S512x6144_1_0_0_1_n_n 256 rfl rfl k
    exact funext fun a => Fin.ext (by
      match a with
      | ⟨0, _⟩ => exact (rhsG_0 _ _).trans hk
      | ⟨1, _⟩ => exact rhsG_1 _ _)

/-! ## One step of the two accumulators -/

/-- The centre accumulator after a step: what it held plus the step's two products. -/
theorem pay7_apply (p : Fin 512) (q : Fin 2048) (v6 v9 : Vec Ideal S512x256 .bf16) (v11 v13 : Vec Ideal S256x2048 .bf16)
    (v19 : Vec Ideal S512x2048 .f32) :
    k0_pay7 v6 v9 v11 v13 v19 (ix2 p q)
      = v19 (ix2 p q) + ((∑ k : Fin 256, v6 (ix2 p k) * v11 (ix2 k q)) + ∑ k : Fin 256, v9 (ix2 p k) * v13 (ix2 k q)) := by
  unfold k0_pay7 k0_pay5 k0_pay6
  simp only [shapeCast_self]
  rw [addf_apply, addf_apply, matmul2048_apply, matmul2048_apply]

/-- The gate accumulator after a step: what it held plus the step's two products. -/
theorem pay8_apply (p : Fin 512) (w : Fin 6144) (v6 v9 : Vec Ideal S512x256 .bf16) (v15 v17 : Vec Ideal S256x6144 .bf16)
    (v27 : Vec Ideal S512x6144 .f32) :
    k0_pay8 v6 v9 v15 v17 v27 (ix2 p w)
      = v27 (ix2 p w) + ((∑ k : Fin 256, v6 (ix2 p k) * v15 (ix2 k w)) + ∑ k : Fin 256, v9 (ix2 p k) * v17 (ix2 k w)) := by
  unfold k0_pay8 k0_pay5 k0_pay6
  simp only [shapeCast_self]
  rw [addf_apply, addf_apply, matmul6144_apply, matmul6144_apply]

/-! ## The final combination -/

/-- The stored result at `(p, q)` is the combination of the six numbers read there. -/
theorem pay2_apply (p : Fin 512) (q : Fin 2048) (v38 v40 v41 v42 : Vec Ideal S512x2048 .f32) (v45 v48 : Vec Ideal S512x2048 .bf16) :
    k0_pay2 v38 v40 v41 v42 v45 v48 (ix2 p q)
      = Cert.GateSpec.combine (v45 (ix2 p q)) (v48 (ix2 p q)) (v38 (ix2 p q)) (v40 (ix2 p q)) (v41 (ix2 p q)) (v42 (ix2 p q)) := by
  unfold k0_pay2 Cert.GateSpec.combine
  simp only [shapeCast_self]
  rfl

end Cert.KernelIdeal.Payloads

end
-- ==== Proof.Blocks.lean ====
/-
  Where the kernel body's operands sit in the arrays.

  The grid has 32 x 8 = 256 points; point `t` is (t / 8, t % 8): the row block and the step. The left and right
  operands, 16384 x 2048, are cut into 32 row blocks of 512 rows, and point `t` works on block t / 8. The four weight
  arrays, 2048 rows each, are cut into 8 tiles of 256 rows, and point `t` works on tile t % 8. Inside the body, step
  t % 8 reads the columns 256·(t % 8) … 256·(t % 8) + 255 of its two row blocks, and the last step reads the gate
  accumulator, 512 x 6144, as three slices of 2048 columns. Each statement below reads one such piece at an index
  and names the entry of the whole array (or of the block) that it is.
-/
import proofs.«145906_j5626407157789_2_alg».proof.Proof.Pieces
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.KernelIdeal.Pieces Idealize.ShloMosaic Idealize.ShloMosaic.ValueIdx

variable {F : FTy → Type} [FloatOps F]
variable (m : (ℓ : Loc nD τ sig) → Buf (Elt F) ℓ)

/-! ## The three column slices of the gate accumulator -/

/-- Slice 0 is columns 0 … 2047. -/
theorem slice0_apply (g : Vec F S512x6144 .f32) (p : Fin 512) (q : Fin 2048) :
    slice0 g (ix2 p q) = g (ix2 p ⟨2048 * 0 + q.val, by have := q.isLt; omega⟩) := by
  show g _ = g _
  congr 1
  funext a
  apply Fin.ext
  match a with
  | ⟨0, _⟩ => show 0 + 1 * p.val = p.val; omega
  | ⟨1, _⟩ => show 0 + 1 * q.val = 2048 * 0 + q.val; omega

/-- Slice 1 is columns 2048 … 4095. -/
theorem slice1_apply (g : Vec F S512x6144 .f32) (p : Fin 512) (q : Fin 2048) :
    slice1 g (ix2 p q) = g (ix2 p ⟨2048 * 1 + q.val, by have := q.isLt; omega⟩) := by
  show g _ = g _
  congr 1
  funext a
  apply Fin.ext
  match a with
  | ⟨0, _⟩ => show 0 + 1 * p.val = p.val; omega
  | ⟨1, _⟩ => show 2048 + 1 * q.val = 2048 * 1 + q.val; omega

/-- Slice 2 is columns 4096 … 6143. -/
theorem slice2_apply (g : Vec F S512x6144 .f32) (p : Fin 512) (q : Fin 2048) :
    slice2 g (ix2 p q) = g (ix2 p ⟨2048 * 2 + q.val, by have := q.isLt; omega⟩) := by
  show g _ = g _
  congr 1
  funext a
  apply Fin.ext
  match a with
  | ⟨0, _⟩ => show 0 + 1 * p.val = p.val; omega
  | ⟨1, _⟩ => show 4096 + 1 * q.val = 2048 * 2 + q.val; omega

/-! ## The grid: point `t` of 256 is (t / 8, t % 8) -/

/-- The inner coordinate of point `t` is `t % 8`. -/
theorem coord1 : ∀ t : Fin cfg0.N, ((grid0.coords t) 1).val = t.val % 8 :=
  (by decide +kernel : ∀ t : Fin grid0.N, ((grid0.coords t) 1).val = t.val % 8)

/-- The k-th chunk of a row block is its columns 256·k … 256·k + 255, k the inner coordinate. -/
theorem chunk_apply (t : Fin cfg0.N) (x : Vec F S512x2048 .bf16) (p : Fin 512) (k : Fin 256) :
    chunk (grid0.coords t) x (ix2 p k) = x (ix2 p ⟨256 * (t.val % 8) + k.val, by have := k.isLt; omega⟩) := by
  show x _ = x _
  congr 1
  funext a
  apply Fin.ext
  match a with
  | ⟨0, _⟩ =>
    show (k0_off1 (grid0.coords t)) 0 + 1 * p.val = p.val
    rw [k0_off1_eq]
    show 0 + 1 * p.val = p.val
    omega
  | ⟨1, _⟩ =>
    show (k0_off1 (grid0.coords t)) 1 + 1 * k.val = 256 * (t.val % 8) + k.val
    rw [k0_off1_eq]
    show 256 * ((grid0.coords t) 1).val + 1 * k.val = 256 * (t.val % 8) + k.val
    rw [coord1 t]
    omega

/-! ## Where each window's block sits in its array -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

/-- The left row block at point `t`: rows 512·(t / 8) … of the left array, all 2048 columns. -/
theorem block0_apply (c : Dev nD) (t : Fin cfg0.N) (p : Fin 512) (h : Fin 2048) :
    (iblk m c 0 t : Vec F S512x2048 .bf16) (ix2 p h)
      = (V m c main_v2 : S16384x2048.Idx → Elt F .bf16)
          (ix2 ⟨512 * (t.val / 8) + p.val, by have := t.isLt; have hN : cfg0.N = 256 := N_0; have := p.isLt; omega⟩ h) := by
  have hi := idx0 t
  unfold iblk
  rw [View.read_apply]
  show V m c main_v2 _ = V m c main_v2 _
  congr 1
  funext a
  apply Fin.ext
  match a with
  | ⟨0, _⟩ => show win0_0.index t 0 * 512 + 1 * p.val = 512 * (t.val / 8) + p.val; rw [hi.1]; omega
  | ⟨1, _⟩ => show win0_0.index t 1 * 2048 + 1 * h.val = h.val; rw [hi.2]; omega

theorem idx1 : ∀ t : Fin cfg0.N, win0_1.index t 0 = t.val / 8 ∧ win0_1.index t 1 = 0 :=
  (by decide +kernel : ∀ t : Fin grid0.N, win0_1.index t 0 = t.val / 8 ∧ win0_1.index t 1 = 0)

/-- The right row block at point `t`: rows 512·(t / 8) … of the right array, all 2048 columns. -/
theorem block1_apply (c : Dev nD) (t : Fin cfg0.N) (p : Fin 512) (h : Fin 2048) :
    (iblk m c 1 t : Vec F S512x2048 .bf16) (ix2 p h)
      = (V m c main_v5 : S16384x2048.Idx → Elt F .bf16)
          (ix2 ⟨512 * (t.val / 8) + p.val, by have := t.isLt; have hN : cfg0.N = 256 := N_0; have := p.isLt; omega⟩ h) := by
  have hi := idx1 t
  unfold iblk
  rw [View.read_apply]
  show V m c main_v5 _ = V m c main_v5 _
  congr 1
  funext a
  apply Fin.ext
  match a with
  | ⟨0, _⟩ => show win0_1.index t 0 * 512 + 1 * p.val = 512 * (t.val / 8) + p.val; rw [hi.1]; omega
  | ⟨1, _⟩ => show win0_1.index t 1 * 2048 + 1 * h.val = h.val; rw [hi.2]; omega

theorem idx2 : ∀ t : Fin cfg0.N, win0_2.index t 0 = t.val % 8 ∧ win0_2.index t 1 = 0 :=
  (by decide +kernel : ∀ t : Fin grid0.N, win0_2.index t 0 = t.val % 8 ∧ win0_2.index t 1 = 0)

/-- The centre weights' tile for the left operand at point `t`: rows 256·(t % 8) … , all 2048 columns. -/
theorem block2_apply (c : Dev nD) (t : Fin cfg0.N) (k : Fin 256) (q : Fin 2048) :
    (iblk m c 2 t : Vec F S256x2048 .bf16) (ix2 k q)
      = (V m c main_v7 : S2048x2048.Idx → Elt F .bf16)
          (ix2 ⟨256 * (t.val % 8) + k.val, by have := t.isLt; have hN : cfg0.N = 256 := N_0; have := k.isLt; omega⟩ q) := by
  have hi := idx2 t
  unfold iblk
  rw [View.read_apply]
  show V m c main_v7 _ = V m c main_v7 _
  congr 1
  funext a
  apply Fin.ext
  match a with
  | ⟨0, _⟩ => show win0_2.index t 0 * 256 + 1 * k.val = 256 * (t.val % 8) + k.val; rw [hi.1]; omega
  | ⟨1, _⟩ => show win0_2.index t 1 * 2048 + 1 * q.val = q.val; rw [hi.2]; omega

theorem idx3 : ∀ t : Fin cfg0.N, win0_3.index t 0 = t.val % 8 ∧ win0_3.index t 1 = 0 :=
  (by decide +kernel : ∀ t : Fin grid0.N, win0_3.index t 0 = t.val % 8 ∧ win0_3.index t 1 = 0)

/-- The centre weights' tile for the right operand at point `t`: rows 256·(t % 8) … , all 2048 columns. -/
theorem block3_apply (c : Dev nD) (t : Fin cfg0.N) (k : Fin 256) (q : Fin 2048) :
    (iblk m c 3 t : Vec F S256x2048 .bf16) (ix2 k q)
      = (V m c main_v9 : S2048x2048.Idx → Elt F .bf16)
          (ix2 ⟨256 * (t.val % 8) + k.val, by have := t.isLt; have hN : cfg0.N = 256 := N_0; have := k.isLt; omega⟩ q) := by
  have hi := idx3 t
  unfold iblk
  rw [View.read_apply]
  show V m c main_v9 _ = V m c main_v9 _
  congr 1
  funext a
  apply Fin.ext
  match a with
  | ⟨0, _⟩ => show win0_3.index t 0 * 256 + 1 * k.val = 256 * (t.val % 8) + k.val; rw [hi.1]; omega
  | ⟨1, _⟩ => show win0_3.index t 1 * 2048 + 1 * q.val = q.val; rw [hi.2]; omega

theorem idx4 : ∀ t : Fin cfg0.N, win0_4.index t 0 = t.val % 8 ∧ win0_4.index t 1 = 0 :=
  (by decide +kernel : ∀ t : Fin grid0.N, win0_4.index t 0 = t.val % 8 ∧ win0_4.index t 1 = 0)

/-- The gate weights' tile for the left operand at point `t`: rows 256·(t % 8) … , all 6144 columns. -/
theorem block4_apply (c : Dev nD) (t : Fin cfg0.N) (k : Fin 256) (w : Fin 6144) :
    (iblk m c 4 t : Vec F S256x6144 .bf16) (ix2 k w)
      = (V m c main_v11 : S2048x6144.Idx → Elt F .bf16)
          (ix2 ⟨256 * (t.val % 8) + k.val, by have := t.isLt; have hN : cfg0.N = 256 := N_0; have := k.isLt; omega⟩ w) := by
  have hi := idx4 t
  unfold iblk
  rw [View.read_apply]
  show V m c main_v11 _ = V m c main_v11 _
  congr 1
  funext a
  apply Fin.ext
  match a with
  | ⟨0, _⟩ => show win0_4.index t 0 * 256 + 1 * k.val = 256 * (t.val % 8) + k.val; rw [hi.1]; omega
  | ⟨1, _⟩ => show win0_4.index t 1 * 6144 + 1 * w.val = w.val; rw [hi.2]; omega

theorem idx5 : ∀ t : Fin cfg0.N, win0_5.index t 0 = t.val % 8 ∧ win0_5.index t 1 = 0 :=
  (by decide +kernel : ∀ t : Fin grid0.N, win0_5.index t 0 = t.val % 8 ∧ win0_5.index t 1 = 0)

/-- The gate weights' tile for the right operand at point `t`: rows 256·(t % 8) … , all 6144 columns. -/
theorem block5_apply (c : Dev nD) (t : Fin cfg0.N) (k : Fin 256) (w : Fin 6144) :
    (iblk m c 5 t : Vec F S256x6144 .bf16) (ix2 k w)
      = (V m c main_v13 : S2048x6144.Idx → Elt F .bf16)
          (ix2 ⟨256 * (t.val % 8) + k.val, by have := t.isLt; have hN : cfg0.N = 256 := N_0; have := k.isLt; omega⟩ w) := by
  have hi := idx5 t
  unfold iblk
  rw [View.read_apply]
  show V m c main_v13 _ = V m c main_v13 _
  congr 1
  funext a
  apply Fin.ext
  match a with
  | ⟨0, _⟩ => show win0_5.index t 0 * 256 + 1 * k.val = 256 * (t.val % 8) + k.val; rw [hi.1]; omega
  | ⟨1, _⟩ => show win0_5.index t 1 * 6144 + 1 * w.val = w.val; rw [hi.2]; omega

end Cert.KernelIdeal.Blocks

end
-- ==== Proof.LibBlockSum.lean ====
/-
  A finite sum taken block by block.  A sum of `A * B` terms indexed by the naturals below `A * B` is the sum, over
  the `A` consecutive blocks of length `B`, of each block's sum: term `B * s + k` is the `k`-th term of block `s`.
  Only commutativity and associativity of the addition are used, so the law holds in any commutative additive
  monoid — in particular on the extended reals, where no finiteness of the terms is needed.
-/
import Mathlib.Algebra.BigOperators.Fin
import Mathlib.Algebra.BigOperators.Intervals

namespace BlockSum

open Finset

/-- Over `Finset.range`: the `A` block sums of length `B` add up to the sum of the first `A * B` terms. -/
theorem sum_range_blocks {β : Type*} [AddCommMonoid β] (B : ℕ) (f : ℕ → β) :
    ∀ A : ℕ, ∑ s ∈ range A, ∑ k ∈ range B, f (B * s + k) = ∑ j ∈ range (A * B), f j
  | 0 => by simp
  | A + 1 => by
    rw [sum_range_succ, sum_range_blocks B f A, Nat.succ_mul, sum_range_add, Nat.mul_comm B A]

/-- The same with the position inside a block and the position in the whole sum ranging over `Fin`: the form in which
    a sum over a contracted axis of length `A * B`, split into `A` tiles of length `B`, is met. -/
theorem sum_fin_blocks {β : Type*} [AddCommMonoid β] (A B : ℕ) (f : ℕ → β) :
    ∑ s ∈ range A, ∑ k : Fin B, f (B * s + k.val) = ∑ j : Fin (A * B), f j.val := by
  rw [Fin.sum_univ_eq_sum_range (fun j => f j) (A * B), ← sum_range_blocks B f A]
  exact sum_congr rfl fun s _ => Fin.sum_univ_eq_sum_range (fun k => f (B * s + k)) B

end BlockSum
-- ==== Proof.Accum.lean ====
/-
  A contraction over 2048 terms accumulated in 8 chunks of 256, for two interleaved contractions.

  The kernel adds, chunk after chunk, the 256-term partial products of the left operand AND of the right operand to
  one accumulator: after n chunks it holds ∑_{j < n} (B_f j + B_g j), with B_f j the j-th block of 256 terms of f. After all
  eight chunks this is (∑ₕ f h) + (∑ₕ g h): regrouping a finite sum, which needs only commutativity and
  associativity of addition and so holds on the extended reals with no finiteness assumption.
-/
import proofs.«145906_j5626407157789_2_alg».proof.Proof.LibBlockSum
import Idealize.ShloMosaic.PureOps.Ideal

noncomputable section

namespace Cert.Accum

open Finset

/-- A family indexed below `n`, extended by zero to every natural number. -/
def tot {n : ℕ} (f : Fin n → EReal) (h : ℕ) : EReal := if hh : h < n then f ⟨h, hh⟩ else 0

theorem tot_val {n : ℕ} (f : Fin n → EReal) (h : Fin n) : tot f h.val = f h := by
  unfold tot; rw [dif_pos h.isLt]

theorem tot_of_lt {n : ℕ} (f : Fin n → EReal) {h : ℕ} (hh : h < n) : tot f h = f ⟨h, hh⟩ := dif_pos hh

/-- The j-th block of 256 consecutive terms. -/
def blockSum (f : ℕ → EReal) (j : ℕ) : EReal := ∑ k : Fin 256, f (256 * j + k.val)

/-- The accumulator after the first `n` chunks: each chunk adds its block of `f` plus its block of `g`. -/
def partialSum (f g : ℕ → EReal) (n : ℕ) : EReal := ∑ j ∈ range n, (blockSum f j + blockSum g j)

/-- After the first chunk, starting from zero. -/
theorem zero_add_first (f g : ℕ → EReal) : 0 + (blockSum f 0 + blockSum g 0) = partialSum f g 1 := by
  unfold partialSum; rw [sum_range_one, zero_add]

/-- One more chunk. -/
theorem partialSum_succ (f g : ℕ → EReal) (n : ℕ) :
    partialSum f g n + (blockSum f n + blockSum g n) = partialSum f g (n + 1) := (sum_range_succ _ _).symm

/-- All eight chunks: the two whole contractions, added. -/
theorem partialSum_eight (F G : Fin 2048 → EReal) : partialSum (tot F) (tot G) 8 = (∑ h, F h) + ∑ h, G h := by
  unfold partialSum blockSum
  rw [sum_add_distrib, BlockSum.sum_fin_blocks 8 256 (tot F), BlockSum.sum_fin_blocks 8 256 (tot G)]
  show (∑ j : Fin 2048, tot F j.val) + (∑ j : Fin 2048, tot G j.val) = _
  congr 1 <;> exact Finset.sum_congr rfl (fun h _ => tot_val _ h)

end Cert.Accum

end
-- ==== Proof.Invariant.lean ====
/-
  The two accumulators and the output block, as values of the argument arrays.

  Row block b and chunk k are the coordinates of grid point t = 8·b + k. Local row p of row block b is row
  r = 512·b + p of the flattened left and right node arrays. After point t the centre accumulator holds, at (p, q),

      ∑_{j ≤ k} ( ∑_{i < 256} left[r, 256·j + i]·WL[q, 256·j + i]  +  ∑_{i < 256} right[r, 256·j + i]·WR[q, 256·j + i] ),

  by induction on the point: the first chunk adds its two products to zero, a later chunk to what the point before
  left. The gate accumulator likewise, with GL, GR and its 6144 columns. At k = 7 the eight chunks make up the whole
  contraction over the 2048 hidden entries, and the epilogue of the finished accumulators is the specification's
  combination at row r.
-/
import proofs.«145906_j5626407157789_2_alg».proof.Proof.Steps
import proofs.«145906_j5626407157789_2_alg».proof.Proof.Payloads
import proofs.«145906_j5626407157789_2_alg».proof.Proof.Blocks
import proofs.«145906_j5626407157789_2_alg».proof.Proof.HostSide
import proofs.«145906_j5626407157789_2_alg».proof.Proof.Accum

set_option maxRecDepth 16384
set_option backward.isDefEq.respectTransparency.types false

noncomputable section

open Idealize.ShloMosaic Idealize.ShloMosaic.TcCoe Idealize.SL.Sem

namespace Cert.KernelIdeal.Invariant

open Cert.KernelIdeal Cert.KernelIdeal.Gen Cert.KernelIdeal.Pieces Cert.KernelIdeal.Steps Cert.KernelIdeal.Payloads
  Cert.KernelIdeal.Blocks Cert.KernelIdeal.HostSide Idealize.ShloMosaic.ValueIdx

variable (m : (ℓ : Loc nD τ sig) → Buf (Elt Ideal) ℓ) (c : Dev nD)

/-- The five argument arrays. -/
abbrev argX : GateSpec.SX.Idx → EReal := m ((c.tc : Thread nD τ).loc main_arg0)
abbrev argWl : (⟨2, ![2048, 2048]⟩ : Shape).Idx → EReal := m ((c.tc : Thread nD τ).loc main_arg1)
abbrev argWr : (⟨2, ![2048, 2048]⟩ : Shape).Idx → EReal := m ((c.tc : Thread nD τ).loc main_arg2)
abbrev argGl : (⟨2, ![6144, 2048]⟩ : Shape).Idx → EReal := m ((c.tc : Thread nD τ).loc main_arg3)
abbrev argGr : (⟨2, ![6144, 2048]⟩ : Shape).Idx → EReal := m ((c.tc : Thread nD τ).loc main_arg4)

/-- Row `512·(n / 8) + p` of the flattened node arrays: local row `p` of the row block of point `n`. -/
def rowN (n : ℕ) (p : Fin 512) : Fin 16384 := ⟨(512 * (n / 8) + p.val) % 16384, Nat.mod_lt _ (by decide)⟩

/-- A point that is not a first chunk lies in the row block of the point before it. -/
theorem rowN_pred (n : ℕ) (p : Fin 512) (h0 : ¬n % 8 = 0) : rowN (n - 1) p = rowN n p := by
  have e : (n - 1) / 8 = n / 8 := by omega
  exact Fin.ext (by show (512 * ((n - 1) / 8) + p.val) % 16384 = (512 * (n / 8) + p.val) % 16384; rw [e])

/-- The 2048 products of a node's hidden vector with row `k` of a weight matrix. -/
def prodRow {K : ℕ} (v : Fin 2048 → EReal) (W : (⟨2, ![K, 2048]⟩ : Shape).Idx → EReal) (k : Fin K) : Fin 2048 → EReal :=
  fun h => v h * W (ix2 k h)

/-- Eight chunks of the two contractions are the specification's projection. -/
theorem full_eq_proj {K : ℕ} (x : GateSpec.SX.Idx → EReal) (W W' : (⟨2, ![K, 2048]⟩ : Shape).Idx → EReal)
    (r : Fin 16384) (k : Fin K) :
    Accum.partialSum (Accum.tot (prodRow (GateSpec.left x r) W k)) (Accum.tot (prodRow (GateSpec.right x r) W' k)) 8
      = GateSpec.proj x W W' r k :=
  Accum.partialSum_eight _ _

/-! ## The blocks' entries, in the argument arrays -/

/-- The left row block of point `t` at (p, h) is the left node of row `512·(t / 8) + p` at `h`. -/
theorem left_entry (t : Fin cfg0.N) (p : Fin 512) (h : Fin 2048) :
    (iblk m c 0 t : Vec Ideal S512x2048 .bf16) (ix2 p h) = GateSpec.left (argX m c) (rowN t.val p) h := by
  have ht : t.val < 256 := lt_of_lt_of_eq t.isLt N_0
  have hp := p.isLt
  refine (block0_apply m c t p h).trans ?_
  refine (V_left m c _ h).trans ?_
  show GateSpec.left _ _ _ = GateSpec.left _ _ _
  congr 1
  exact Fin.ext (Nat.mod_eq_of_lt (by omega)).symm

/-- The right row block of point `t` at (p, h) is the right node of row `512·(t / 8) + p` at `h`. -/
theorem right_entry (t : Fin cfg0.N) (p : Fin 512) (h : Fin 2048) :
    (iblk m c 1 t : Vec Ideal S512x2048 .bf16) (ix2 p h) = GateSpec.right (argX m c) (rowN t.val p) h := by
  have ht : t.val < 256 := lt_of_lt_of_eq t.isLt N_0
  have hp := p.isLt
  refine (block1_apply m c t p h).trans ?_
  refine (V_right m c _ h).trans ?_
  show GateSpec.right _ _ _ = GateSpec.right _ _ _
  congr 1
  exact Fin.ext (Nat.mod_eq_of_lt (by omega)).symm

/-- One product of the centre contraction, left operand: chunk column `i` of point `t` is hidden entry `256·(t % 8) + i`. -/
theorem centre_left_term (t : Fin cfg0.N) (p : Fin 512) (q : Fin 2048) (i : Fin 256) :
    chunk (grid0.coords t) (iblk m c 0 t) (ix2 p i) * (iblk m c 2 t : Vec Ideal S256x2048 .bf16) (ix2 i q)
      = Accum.tot (prodRow (GateSpec.left (argX m c) (rowN t.val p)) (argWl m c) q) (256 * (t.val % 8) + i.val) := by
  have hlt : 256 * (t.val % 8) + i.val < 2048 := by have := i.isLt; omega
  rw [Accum.tot_of_lt _ hlt]
  refine congrArg₂ (· * ·) ?_ ?_
  · exact (chunk_apply t (iblk m c 0 t) p i).trans (left_entry m c t p _)
  · exact (block2_apply m c t i q).trans (V_wl m c _ q)

theorem centre_right_term (t : Fin cfg0.N) (p : Fin 512) (q : Fin 2048) (i : Fin 256) :
    chunk (grid0.coords t) (iblk m c 1 t) (ix2 p i) * (iblk m c 3 t : Vec Ideal S256x2048 .bf16) (ix2 i q)
      = Accum.tot (prodRow (GateSpec.right (argX m c) (rowN t.val p)) (argWr m c) q) (256 * (t.val % 8) + i.val) := by
  have hlt : 256 * (t.val % 8) + i.val < 2048 := by have := i.isLt; omega
  rw [Accum.tot_of_lt _ hlt]
  refine congrArg₂ (· * ·) ?_ ?_
  · exact (chunk_apply t (iblk m c 1 t) p i).trans (right_entry m c t p _)
  · exact (block3_apply m c t i q).trans (V_wr m c _ q)

theorem gate_left_term (t : Fin cfg0.N) (p : Fin 512) (w : Fin 6144) (i : Fin 256) :
    chunk (grid0.coords t) (iblk m c 0 t) (ix2 p i) * (iblk m c 4 t : Vec Ideal S256x6144 .bf16) (ix2 i w)
      = Accum.tot (prodRow (GateSpec.left (argX m c) (rowN t.val p)) (argGl m c) w) (256 * (t.val % 8) + i.val) := by
  have hlt : 256 * (t.val % 8) + i.val < 2048 := by have := i.isLt; omega
  rw [Accum.tot_of_lt _ hlt]
  refine congrArg₂ (· * ·) ?_ ?_
  · exact (chunk_apply t (iblk m c 0 t) p i).trans (left_entry m c t p _)
  · exact (block4_apply m c t i w).trans (V_gl m c _ w)

theorem gate_right_term (t : Fin cfg0.N) (p : Fin 512) (w : Fin 6144) (i : Fin 256) :
    chunk (grid0.coords t) (iblk m c 1 t) (ix2 p i) * (iblk m c 5 t : Vec Ideal S256x6144 .bf16) (ix2 i w)
      = Accum.tot (prodRow (GateSpec.right (argX m c) (rowN t.val p)) (argGr m c) w) (256 * (t.val % 8) + i.val) := by
  have hlt : 256 * (t.val % 8) + i.val < 2048 := by have := i.isLt; omega
  rw [Accum.tot_of_lt _ hlt]
  refine congrArg₂ (· * ·) ?_ ?_
  · exact (chunk_apply t (iblk m c 1 t) p i).trans (right_entry m c t p _)
  · exact (block5_apply m c t i w).trans (V_gr m c _ w)

/-! ## One point's contribution -/

/-- What point `t` adds to the centre accumulator at (p, q): block `t % 8` of the left and of the right contraction. -/
theorem centre_block (t : Fin cfg0.N) (p : Fin 512) (q : Fin 2048) :
    (∑ i : Fin 256, chunk (grid0.coords t) (iblk m c 0 t) (ix2 p i) * (iblk m c 2 t : Vec Ideal S256x2048 .bf16) (ix2 i q))
      + ∑ i : Fin 256, chunk (grid0.coords t) (iblk m c 1 t) (ix2 p i) * (iblk m c 3 t : Vec Ideal S256x2048 .bf16) (ix2 i q)
      = Accum.blockSum (Accum.tot (prodRow (GateSpec.left (argX m c) (rowN t.val p)) (argWl m c) q)) (t.val % 8)
        + Accum.blockSum (Accum.tot (prodRow (GateSpec.right (argX m c) (rowN t.val p)) (argWr m c) q)) (t.val % 8) := by
  unfold Accum.blockSum
  exact congrArg₂ (· + ·) (Finset.sum_congr rfl fun i _ => centre_left_term m c t p q i)
    (Finset.sum_congr rfl fun i _ => centre_right_term m c t p q i)

/-- What point `t` adds to the gate accumulator at (p, w). -/
theorem gate_block (t : Fin cfg0.N) (p : Fin 512) (w : Fin 6144) :
    (∑ i : Fin 256, chunk (grid0.coords t) (iblk m c 0 t) (ix2 p i) * (iblk m c 4 t : Vec Ideal S256x6144 .bf16) (ix2 i w))
      + ∑ i : Fin 256, chunk (grid0.coords t) (iblk m c 1 t) (ix2 p i) * (iblk m c 5 t : Vec Ideal S256x6144 .bf16) (ix2 i w)
      = Accum.blockSum (Accum.tot (prodRow (GateSpec.left (argX m c) (rowN t.val p)) (argGl m c) w)) (t.val % 8)
        + Accum.blockSum (Accum.tot (prodRow (GateSpec.right (argX m c) (rowN t.val p)) (argGr m c) w)) (t.val % 8) := by
  unfold Accum.blockSum
  exact congrArg₂ (· + ·) (Finset.sum_congr rfl fun i _ => gate_left_term m c t p w i)
    (Finset.sum_congr rfl fun i _ => gate_right_term m c t p w i)

/-- At a first chunk the centre accumulator is zero plus the chunk's blocks. -/
theorem centre_zero_at (t : Fin cfg0.N) (h0 : t.val % 8 = 0) (p : Fin 512) (q : Fin 2048) :
    (outsAt0 m c t.val t.isLt).2.1 (ix2 p q)
      = 0 + (Accum.blockSum (Accum.tot (prodRow (GateSpec.left (argX m c) (rowN t.val p)) (argWl m c) q)) (t.val % 8)
        + Accum.blockSum (Accum.tot (prodRow (GateSpec.right (argX m c) (rowN t.val p)) (argWr m c) q)) (t.val % 8)) := by
  rw [centre_zero m c t h0]
  refine (pay7_apply p q _ _ _ _ _).trans ?_
  rw [pay3_apply p q, centre_block m c t p q]

/-- At a later chunk the centre accumulator is what the point before left plus the chunk's blocks. -/
theorem centre_succ_at (t : Fin cfg0.N) (h0 : ¬t.val % 8 = 0) (p : Fin 512) (q : Fin 2048) :
    (outsAt0 m c t.val t.isLt).2.1 (ix2 p q)
      = (outsAt0 m c (t.val - 1) (Nat.lt_of_le_of_lt (Nat.sub_le _ _) t.isLt)).2.1 (ix2 p q)
        + (Accum.blockSum (Accum.tot (prodRow (GateSpec.left (argX m c) (rowN t.val p)) (argWl m c) q)) (t.val % 8)
          + Accum.blockSum (Accum.tot (prodRow (GateSpec.right (argX m c) (rowN t.val p)) (argWr m c) q)) (t.val % 8)) := by
  rw [centre_succ m c t h0]
  refine (pay7_apply p q _ _ _ _ _).trans ?_
  rw [centre_block m c t p q]

theorem gate_zero_at (t : Fin cfg0.N) (h0 : t.val % 8 = 0) (p : Fin 512) (w : Fin 6144) :
    (outsAt0 m c t.val t.isLt).2.2 (ix2 p w)
      = 0 + (Accum.blockSum (Accum.tot (prodRow (GateSpec.left (argX m c) (rowN t.val p)) (argGl m c) w)) (t.val % 8)
        + Accum.blockSum (Accum.tot (prodRow (GateSpec.right (argX m c) (rowN t.val p)) (argGr m c) w)) (t.val % 8)) := by
  rw [gate_zero m c t h0, pay1_eq]
  refine (pay8_apply p w _ _ _ _ _).trans ?_
  rw [pay4_apply p w, gate_block m c t p w]

theorem gate_succ_at (t : Fin cfg0.N) (h0 : ¬t.val % 8 = 0) (p : Fin 512) (w : Fin 6144) :
    (outsAt0 m c t.val t.isLt).2.2 (ix2 p w)
      = (outsAt0 m c (t.val - 1) (Nat.lt_of_le_of_lt (Nat.sub_le _ _) t.isLt)).2.2 (ix2 p w)
        + (Accum.blockSum (Accum.tot (prodRow (GateSpec.left (argX m c) (rowN t.val p)) (argGl m c) w)) (t.val % 8)
          + Accum.blockSum (Accum.tot (prodRow (GateSpec.right (argX m c) (rowN t.val p)) (argGr m c) w)) (t.val % 8)) := by
  rw [gate_succ m c t h0, pay1_eq]
  refine (pay8_apply p w _ _ _ _ _).trans ?_
  rw [gate_block m c t p w]

/-! ## The accumulators after point `n`: the first `n % 8 + 1` chunks -/

theorem centre_inv (n : ℕ) : ∀ (hn : n < cfg0.N) (p : Fin 512) (q : Fin 2048),
    (outsAt0 m c n hn).2.1 (ix2 p q)
      = Accum.partialSum (Accum.tot (prodRow (GateSpec.left (argX m c) (rowN n p)) (argWl m c) q)) (Accum.tot (prodRow (GateSpec.right (argX m c) (rowN n p)) (argWr m c) q)) (n % 8 + 1) := by
  induction n using Nat.strong_induction_on with
  | _ n ih =>
    intro hn p q
    by_cases h0 : n % 8 = 0
    · refine (centre_zero_at m c ⟨n, hn⟩ h0 p q).trans ?_
      show 0 + (Accum.blockSum _ (n % 8) + Accum.blockSum _ (n % 8)) = Accum.partialSum _ _ (n % 8 + 1)
      rw [h0]
      exact Accum.zero_add_first _ _
    · refine (centre_succ_at m c ⟨n, hn⟩ h0 p q).trans ?_
      have hn' : n - 1 < cfg0.N := Nat.lt_of_le_of_lt (Nat.sub_le _ _) hn
      have ihn := ih (n - 1) (by omega) hn' p q
      rw [rowN_pred n p h0, show (n - 1) % 8 + 1 = n % 8 from by omega] at ihn
      show (outsAt0 m c (n - 1) hn').2.1 (ix2 p q) + (Accum.blockSum _ (n % 8) + Accum.blockSum _ (n % 8))
        = Accum.partialSum _ _ (n % 8 + 1)
      rw [ihn]
      exact Accum.partialSum_succ _ _ _

theorem gate_inv (n : ℕ) : ∀ (hn : n < cfg0.N) (p : Fin 512) (w : Fin 6144),
    (outsAt0 m c n hn).2.2 (ix2 p w)
      = Accum.partialSum (Accum.tot (prodRow (GateSpec.left (argX m c) (rowN n p)) (argGl m c) w)) (Accum.tot (prodRow (GateSpec.right (argX m c) (rowN n p)) (argGr m c) w)) (n % 8 + 1) := by
  induction n using Nat.strong_induction_on with
  | _ n ih =>
    intro hn p w
    by_cases h0 : n % 8 = 0
    · refine (gate_zero_at m c ⟨n, hn⟩ h0 p w).trans ?_
      show 0 + (Accum.blockSum _ (n % 8) + Accum.blockSum _ (n % 8)) = Accum.partialSum _ _ (n % 8 + 1)
      rw [h0]
      exact Accum.zero_add_first _ _
    · refine (gate_succ_at m c ⟨n, hn⟩ h0 p w).trans ?_
      have hn' : n - 1 < cfg0.N := Nat.lt_of_le_of_lt (Nat.sub_le _ _) hn
      have ihn := ih (n - 1) (by omega) hn' p w
      rw [rowN_pred n p h0, show (n - 1) % 8 + 1 = n % 8 from by omega] at ihn
      show (outsAt0 m c (n - 1) hn').2.2 (ix2 p w) + (Accum.blockSum _ (n % 8) + Accum.blockSum _ (n % 8))
        = Accum.partialSum _ _ (n % 8 + 1)
      rw [ihn]
      exact Accum.partialSum_succ _ _ _

/-! ## The output block at a last chunk -/

/-- At a last chunk (k = 7) the output block at (p, q) is the specification's combination at row `512·(t / 8) + p`. -/
theorem out_value (t : Fin cfg0.N) (h7 : t.val % 8 = 7) (p : Fin 512) (q : Fin 2048) (r : Fin 16384)
    (hr : r.val = 512 * (t.val / 8) + p.val) :
    (outsAt0 m c t.val t.isLt).1 (ix2 p q)
      = GateSpec.outRow (argX m c) (argWl m c) (argWr m c) (argGl m c) (argGr m c) r q := by
  have ht : t.val < 256 := lt_of_lt_of_eq t.isLt N_0
  have hp := p.isLt
  have hrow : rowN t.val p = r :=
    Fin.ext (by show (512 * (t.val / 8) + p.val) % 16384 = r.val; rw [hr]; exact Nat.mod_eq_of_lt (by omega))
  have e8 : t.val % 8 + 1 = 8 := by omega
  rw [out_at_last m c t h7]
  refine (pay2_apply p q _ _ _ _ _ _).trans ?_
  rw [slice0_apply _ p q, slice1_apply _ p q, slice2_apply _ p q, left_entry m c t p q, right_entry m c t p q,
    centre_inv m c t.val t.isLt p q, gate_inv m c t.val t.isLt p _, gate_inv m c t.val t.isLt p _,
    gate_inv m c t.val t.isLt p _, e8, full_eq_proj, full_eq_proj, full_eq_proj, full_eq_proj, hrow]
  rfl

end Cert.KernelIdeal.Invariant

end
-- ==== Proof.Claims.lean ====
/-
  The five claims of the certificate.

  Both programs compute, for each pair of neighbouring nodes of the sequence and each column, a combination of the
  left value, the right value and a logistic centre value under the softmax weights of three gate logits. The kernel
  accumulates the weighted numerator and divides once by the sum of the weights; the reference normalises the three
  weights first. On real numbers the two arrangements agree (the distributive law, the divisor being positive), and
  the precondition says that every argument entry is real. So both runs end at one array, the specification's `G`.
-/
import proofs.«145906_j5626407157789_2_alg».proof.Defs
import proofs.«145906_j5626407157789_2_alg».proof.Proof.Gen.Kernel
import proofs.«145906_j5626407157789_2_alg».proof.Proof.Gen.Kernel.Frame
import proofs.«145906_j5626407157789_2_alg».proof.Proof.Gen.KernelIdeal
import proofs.«145906_j5626407157789_2_alg».proof.Proof.Gen.KernelIdeal.Frame
import proofs.«145906_j5626407157789_2_alg».proof.Proof.Gen.ReferenceIdeal
import proofs.«145906_j5626407157789_2_alg».proof.Proof.Gen.ReferenceIdeal.Run
import proofs.«145906_j5626407157789_2_alg».proof.Proof.Gen.ReferenceIdeal.Read
import proofs.«145906_j5626407157789_2_alg».proof.Proof.Gen.Pre_finite_inputs
import proofs.«145906_j5626407157789_2_alg».proof.Proof.Spec
import proofs.«145906_j5626407157789_2_alg».proof.Proof.FiniteInputs
import proofs.«145906_j5626407157789_2_alg».proof.Proof.RefSide
import proofs.«145906_j5626407157789_2_alg».proof.Proof.KernelArray
import proofs.«145906_j5626407157789_2_alg».proof.Proof.Invariant

noncomputable section

namespace Cert.Proof.GateClaims

open Idealize.ShloMosaic Idealize.SL.Sem Idealize.ShloMosaic.ValueIdx

/-- The kernel as printed runs and leaves its arguments unchanged. -/
theorem frame_k : Cert.frame_Kernel := fun m ρ _ => Cert.Kernel.Gen.frame m ρ

/-- The kernel read on the extended reals runs and leaves its arguments unchanged. -/
theorem frame_ki : Cert.frame_KernelIdeal := fun m ρ _ => Cert.KernelIdeal.Gen.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The kernel's text is read on the extended reals as it stands: nothing was rewritten. -/
theorem preserves : Cert.preserves_Kernel_KernelIdeal := trivial

/-- On real-valued arguments both programs end with the array `G` of the specification: the kernel, block by block,
    leaves row `r`, column `q` of the flat result at `outRow … r q`, and the flat row of position `(s, a, b)` is
    `32·s + 16·a + b`; the reference computes the three values weighted by their normalised weights, which on real
    numbers is the same combination (`Cert.RefSide.ref_eq_G`). The precondition says that the arguments are real. -/
theorem algebraic : Cert.algebraic_KernelIdeal_ReferenceIdeal := by
  intro m ρ m' ρ' hpre hagree
  refine ⟨fun c => Cert.GateSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans rfl, (h c).2⟩)
      (Cert.KernelIdeal.KernelArray.run_of_blocks m ρ
        (fun c j => Cert.GateSpec.outRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (j 0) (j 1))
        (fun c t h7 p q r hr => Cert.KernelIdeal.Invariant.out_value m c t h7 p q r hr))
  · refine (θ_run Cert.ReferenceIdeal.defs _ _).mono (fun _ h c => ⟨(h c).1.trans ?_, (h c).2⟩)
      (Cert.ReferenceIdeal.Value.run (F := Ideal) m' ρ')
    have fin := Cert.FiniteInputs.realValued_of_pre m hpre c
    rw [Cert.ReferenceIdeal.Read.val_main_v36_eq, (hagree c).1, (hagree c).2.1, (hagree c).2.2.1, (hagree c).2.2.2.1,
      (hagree c).2.2.2.2]
    exact Cert.RefSide.ref_eq_G _ _ _ _ _ fin.1 fin.2.1 fin.2.2.1 fin.2.2.2.1 fin.2.2.2.2

end Cert.Proof.GateClaims

end
-- ==== Proof.lean ====
/- Two programs compute one gated combination of neighbouring nodes: a left value, a right value and a logistic centre value,
   weighted by the softmax of three gate logits. The kernel accumulates the weighted numerator and divides it once by the
   sum of the weights; the reference normalises the weights first and then combines. On real arguments, which the
   precondition grants, the two arrangements are equal by the distributive law of the reals, the divisor being positive:
   both programs end at the specification's array `G` (Proof/Spec.lean). The claims are proved in Proof/Claims.lean. -/
import proofs.«145906_j5626407157789_2_alg».proof.Defs
import proofs.«145906_j5626407157789_2_alg».proof.Proof.Gen.Kernel
import proofs.«145906_j5626407157789_2_alg».proof.Proof.Gen.Kernel.Skeleton
import proofs.«145906_j5626407157789_2_alg».proof.Proof.Gen.Kernel.Launch
import proofs.«145906_j5626407157789_2_alg».proof.Proof.Gen.Kernel.Points
import proofs.«145906_j5626407157789_2_alg».proof.Proof.Gen.Kernel.Frame
import proofs.«145906_j5626407157789_2_alg».proof.Proof.Gen.KernelIdeal
import proofs.«145906_j5626407157789_2_alg».proof.Proof.Gen.KernelIdeal.Skeleton
import proofs.«145906_j5626407157789_2_alg».proof.Proof.Gen.KernelIdeal.Launch
import proofs.«145906_j5626407157789_2_alg».proof.Proof.Gen.KernelIdeal.Points
import proofs.«145906_j5626407157789_2_alg».proof.Proof.Gen.KernelIdeal.Frame
import proofs.«145906_j5626407157789_2_alg».proof.Proof.Gen.ReferenceIdeal
import proofs.«145906_j5626407157789_2_alg».proof.Proof.Gen.ReferenceIdeal.Run
import proofs.«145906_j5626407157789_2_alg».proof.Proof.Gen.ReferenceIdeal.Read
import proofs.«145906_j5626407157789_2_alg».proof.Proof.Gen.Pre_finite_inputs
import Idealize.ShloMosaic.Adequacy
import Idealize.ShloMosaic.Init
import proofs.«145906_j5626407157789_2_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GateClaims.frame_k, GateClaims.frame_ki, GateClaims.frame_ri, GateClaims.preserves, GateClaims.algebraic⟩

end Cert.Proof

end
